-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_cst_20 : FVec F S_ .f32 := constant S_ .f32 0x00000000#32
  let main_v54 : FVec F S256 .f32 := broadcastInDim S256 ![] bcast_S_S256 main_cst_20
  let main_v55 : IVec S256 1 := cmpf .oge main_arg11 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v53 main_v56
  main_v57

def fn_part2 {F : FTy → Type} [FloatOps F] (main_arg8 : FVec F S256 .f32) (main_arg9 : FVec F S256 .f32) (main_arg10 : FVec F S256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x640000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S640000x128 : Shape := ⟨2, ![640000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S640000x256 : Shape := ⟨2, ![640000, 256]⟩

abbrev nBuf : Space → Nat
  | .hbm => 71
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S640000x1, .f32⟩
  | .hbm, ⟨18, _⟩ => ⟨S_, .f32⟩
  | .hbm, ⟨19, _⟩ => ⟨S50000x1, .f32⟩
  | .hbm, ⟨20, _⟩ => ⟨S640000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .bf16⟩
  | .hbm, ⟨35, _⟩ => ⟨S640000x128, .f32⟩
  | .hbm, ⟨36, _⟩ => ⟨S_, .f32⟩
  | .hbm, ⟨37, _⟩ => ⟨S50000x128, .f32⟩
  | .hbm, ⟨38, _⟩ => ⟨S640000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S128x256, .bf16⟩
  | .hbm, ⟨43, _⟩ => ⟨S128x256, .bf16⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S50000x256, .f32⟩
  | .hbm, ⟨50, _⟩ => ⟨S50000x256, .bf16⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x256, .bf16⟩
  | .hbm, ⟨60, _⟩ => ⟨S640000x256, .f32⟩
  | .hbm, ⟨61, _⟩ => ⟨S_, .f32⟩
  | .hbm, ⟨62, _⟩ => ⟨S50000x256, .f32⟩
  | .hbm, ⟨63, _⟩ => ⟨S640000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S256x256, .bf16⟩
  | .hbm, ⟨68, _⟩ => ⟨S256x256, .bf16⟩
  | .hbm, ⟨69, _⟩ => ⟨S1x256, .f32⟩
  | .hbm, ⟨70, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .bf16⟩
  | .local _ .vmem, ⟨14, _⟩ => ⟨S2000x256, .bf16⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .bf16⟩
  | .local _ .vmem, ⟨20, _⟩ => ⟨S1x256, .f32⟩
  | .local _ .vmem, ⟨21, _⟩ => ⟨S256x256, .bf16⟩
  | .local _ .vmem, ⟨22, _⟩ => ⟨S2000x256, .f32⟩
  | .local _ .vmem, ⟨23, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S50000x1 : S_.BroadcastsInDim S50000x1 (![] : Fin 0 → Fin S50000x1.rank)
  bcast_S640000_S640000x1_0 : S640000.BroadcastsInDim S640000x1 (![0] : Fin 1 → Fin S640000x1.rank)
  bitsLt_bf16_f32 : FTy.bits .bf16 < FTy.bits .f32
  bcast_S_S640000 : S_.BroadcastsInDim S640000 (![] : Fin 0 → Fin S640000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000x1_S640000x1_S640000x1_1_0_0_1_wf : ScatterDims.WF S50000x1 S640000x1 S640000x1 [1] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .bf16 = 32 ∨ (Rect.block (s := S50000x256) S2000x256.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31_0) S2000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v31_1) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x256 : Shape := ⟨2, ![50000, 256]⟩
abbrev S1x256 : Shape := ⟨2, ![1, 256]⟩
abbrev S50000 : Shape := ⟨1, ![50000]⟩
abbrev S640000x256 : Shape := ⟨2, ![640000, 256]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .f32⟩
  | .hbm, ⟨26, _⟩ => ⟨S50000x128, .f32⟩
  | .hbm, ⟨27, _⟩ => ⟨S640000x1, .i32⟩
  | .hbm, ⟨28, _⟩ => ⟨S50000x128, .f32⟩
  | .hbm, ⟨29, _⟩ => ⟨S_, .f32⟩
  | .hbm, ⟨30, _⟩ => ⟨S640000x1, .f32⟩
  | .hbm, ⟨31, _⟩ => ⟨S_, .f32⟩
  | .hbm, ⟨32, _⟩ => ⟨S50000x1, .f32⟩
  | .hbm, ⟨33, _⟩ => ⟨S640000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x256, .f32⟩
  | .hbm, ⟨82, _⟩ => ⟨S_, .f32⟩
  | .hbm, ⟨83, _⟩ => ⟨S50000x256, .f32⟩
  | .hbm, ⟨84, _⟩ => ⟨S640000x1, .i32⟩
  | .hbm, ⟨85, _⟩ => ⟨S50000x256, .f32⟩
  | .hbm, ⟨86, _⟩ => ⟨S_, .f32⟩
  | .hbm, ⟨87, _⟩ => ⟨S640000x1, .f32⟩
  | .hbm, ⟨88, _⟩ => ⟨S_, .f32⟩
  | .hbm, ⟨89, _⟩ => ⟨S50000x1, .f32⟩
  | .hbm, ⟨90, _⟩ => ⟨S640000x1, .i32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x256, .f32⟩
  | .hbm, ⟨112, _⟩ => ⟨S50000x256, .f32⟩
  | .hbm, ⟨113, _⟩ => ⟨S50000x256, .f32⟩
  | .hbm, ⟨114, _⟩ => ⟨S_, .f32⟩
  | .hbm, ⟨115, _⟩ => ⟨S50000, .f32⟩
  | .hbm, ⟨116, _⟩ => ⟨S50000x1, .f32⟩
  | .hbm, ⟨117, _⟩ => ⟨S50000x1, .f32⟩
  | .hbm, ⟨118, _⟩ => ⟨S_, .f32⟩
  | .hbm, ⟨119, _⟩ => ⟨S50000x1, .f32⟩
  | .hbm, ⟨120, _⟩ => ⟨S50000x1, .f32⟩
  | .hbm, ⟨121, _⟩ => ⟨S50000x256, .f32⟩
  | .hbm, ⟨122, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x256_S50000x256_1_0_0_1_n_n_wf : DotDims.WF S50000x256 S256x256 S50000x256 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The mathematics of the two graph layers, stated once, row by row, over the extended reals.

  A node's row is first mapped linearly: with a the mean of its in-neighbours' feature rows and x its own row,
      lin(a, x)(j) = (∑ k, a(k) · Wl(k, j)) + b(j) + ∑ k, x(k) · Wr(k, j).
  The row is then divided by its Euclidean length, floored at a small constant:
      l2n(o)(j) = o(j) / max(√(∑ k, o(k)²), εn).
  The first layer follows this by the batch normalisation in its multiplicative form and the positive part,
      bnRelu(o)(j) = max((o(j) − μ(j)) · (γ(j) · (σ²(j) + εv)^(−1/2)) + β(j), 0),
  and the second layer normalises twice. The arrays of a layer are these row functions applied to every row.

  The multiplicative form γ · (σ² + εv)^(−1/2) and the quotient γ / √(σ² + εv) agree wherever σ² + εv is positive
  (scale_law): for a positive real both are γ times the reciprocal of the square root, and at +∞ both are 0.
-/
import Idealize.ShloMosaic.Lib.ValueIdx
import Idealize.ShloMosaic.PureOps.Ideal.Laws

noncomputable section

open scoped BigOperators

namespace Cert.Sage

open Idealize.ShloMosaic Idealize.ShloMosaic.ValueIdx

/-- The floor of a row's length, as the 32-bit word both programs carry. -/
abbrev epsNorm : EReal := Ideal.ofBits .f32 0x2B8CBCCC#32
/-- The constant added to the variance, as the 32-bit word both programs carry. -/
abbrev epsVar : EReal := Ideal.ofBits .f32 0x3727C5AC#32
/-- The zero word against which the positive part is taken. -/
abbrev zeroW : EReal := Ideal.ofBits .f32 0x00000000#32

/-- The linear map of one node: its neighbours' mean row through Wl, plus the bias, plus its own row through Wr. -/
def lin {K : ℕ} (a x : Fin K → EReal) (Wl Wr : Fin K → Fin 256 → EReal) (b : Fin 256 → EReal) (j : Fin 256) : EReal :=
  (∑ k : Fin K, a k * Wl k j) + b j + ∑ k : Fin K, x k * Wr k j

/-- A row divided by its Euclidean length floored at epsNorm. -/
def l2n (o : Fin 256 → EReal) (j : Fin 256) : EReal :=
  Ideal.div (o j) (max (Ideal.sqrt (∑ k : Fin 256, o k * o k)) epsNorm)

/-- Batch normalisation with the scale in its multiplicative form, then the positive part. -/
def bnRelu (g be mu var : Fin 256 → EReal) (o : Fin 256 → EReal) (j : Fin 256) : EReal :=
  max ((o j - mu j) * (g j * Ideal.rsqrt (var j + epsVar)) + be j) zeroW

/-- The first layer on one node's rows. -/
def layer0 (a x : Fin 128 → EReal) (Wl Wr : Fin 128 → Fin 256 → EReal) (b g be mu var : Fin 256 → EReal)
    (j : Fin 256) : EReal :=
  bnRelu g be mu var (l2n (lin a x Wl Wr b)) j

/-- The second layer on one node's rows: the linear map, normalised twice. -/
def layer1 (a h : Fin 256 → EReal) (Wl Wr : Fin 256 → Fin 256 → EReal) (b : Fin 256 → EReal) (j : Fin 256) : EReal :=
  l2n (l2n (lin a h Wl Wr b)) j

/-- The first layer's array: row i of the result is layer0 of row i of the aggregated array A and of the features X. -/
def L0 (A X : FVec Ideal ⟨2, ![50000, 128]⟩ .f32) (Wl Wr : FVec Ideal ⟨2, ![128, 256]⟩ .f32)
    (b g be mu var : FVec Ideal ⟨1, ![256]⟩ .f32) : FVec Ideal ⟨2, ![50000, 256]⟩ .f32 :=
  fun i => layer0 (fun k => A (ix2 (i 0 : Fin 50000) k)) (fun k => X (ix2 (i 0 : Fin 50000) k))
    (fun k j => Wl (ix2 k j)) (fun k j => Wr (ix2 k j)) (fun j => b (ix1 j)) (fun j => g (ix1 j)) (fun j => be (ix1 j))
    (fun j => mu (ix1 j)) (fun j => var (ix1 j)) (i 1 : Fin 256)

/-- The second layer's array: row i of the result is layer1 of row i of the aggregated array A and of the hidden array H. -/
def L1 (A H : FVec Ideal ⟨2, ![50000, 256]⟩ .f32) (Wl Wr : FVec Ideal ⟨2, ![256, 256]⟩ .f32)
    (b : FVec Ideal ⟨1, ![256]⟩ .f32) : FVec Ideal ⟨2, ![50000, 256]⟩ .f32 :=
  fun i => layer1 (fun k => A (ix2 (i 0 : Fin 50000) k)) (fun k => H (ix2 (i 0 : Fin 50000) k))
    (fun k j => Wl (ix2 k j)) (fun k j => Wr (ix2 k j)) (fun j => b (ix1 j)) (i 1 : Fin 256)

/-- Where v is positive, a factor times v^(−1/2) is the factor divided by √v: for a positive real both are the factor
    times the reciprocal of the real square root, which is not zero; at +∞ the reciprocal root is 0 and so is the
    reciprocal of the root. -/
theorem scale_law (g v : EReal) (hv : 0 < v) : g * Ideal.rsqrt v = Ideal.div g (Ideal.sqrt v) := by
  induction v using EReal.rec with
  | bot => exact absurd hv (by simp)
  | top =>
    have h0 : (⊤ : EReal) ≠ 0 := by simp
    simp [Ideal.div, h0]
  | coe r =>
    have hr : 0 < r := by exact_mod_cast hv
    have hs : Real.sqrt r ≠ 0 := (Real.sqrt_pos.2 hr).ne'
    have hsE : ((Real.sqrt r : ℝ) : EReal) ≠ 0 := by exact_mod_cast hs
    rw [Ideal.rsqrt_coe, Ideal.sqrt_coe, if_neg (not_lt.2 hr.le), if_neg hr.ne', if_neg (not_lt.2 hr.le)]
    unfold Ideal.div
    rw [if_neg hsE, EReal.coe_inv]

end Cert.Sage

end
-- ==== Proof.PreVar.lean ====
/-
  The precondition gives a nonnegative variance.

  The precondition is a conjunction of twelve tests, one per float input, folded left to right by the one-bit "and":
  eleven of them say every entry of an input has absolute value below +∞, and the last says every entry of the
  variance vector (the twelfth input, 256 entries) is at least the zero word. A one-bit "and" that is 1 has both
  operands 1, so the last test alone is 1; that test is the "and" over all 256 entries of the comparison
  var(j) ≥ 0, so each comparison is 1; and on the extended reals the comparison is the order's own, the zero word
  being the number 0. Hence 0 ≤ var(j) for every j. The first eleven tests are never opened.
-/
import proofs.«148908_j3023656976611_2_alg».proof.Pre_finite_inputs
import Idealize.ShloMosaic.Lib.ReduceAll
import Idealize.ShloMosaic.Lib.ValueIdx
import Idealize.ShloMosaic.PureOps.Ideal.Laws
import proofs.«148908_j3023656976611_2_alg».proof.Proof.Spec

noncomputable section

namespace Cert.Sage.Pre

open Idealize.ShloMosaic Idealize.ShloMosaic.ValueIdx Cert.Pre_finite_inputs

/-- The shape with no axes has exactly one index. -/
instance : Subsingleton S_.Idx := ⟨fun a b => funext fun d => d.elim0⟩

/-- The precondition is the "and" of some one-bit value (the first eleven tests, left unnamed) with the last test:
    the "and" over all entries of the comparison of the variance vector against the broadcast zero word. Both sides
    are the same term once the definitions are unfolded. -/
theorem fn_last [Cert.Pre_finite_inputs.Facts] (x0 : FVec Ideal S50000x128 .f32) (x1 : IVec S2x640000 32)
    (x2 : FVec Ideal S128x256 .f32) (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32) :
    ∃ a : IVec S_ 1, Cert.Pre_finite_inputs.fn (F := Ideal) x0 x1 x2 x3 x4 x5 x6 x7 x8 x9 x10 x11
      = andi a (Host.reduce IntOp.andi
          (cmpf .oge x11 (broadcastInDim S256 ![] Facts.bcast_S_S256 (constant (F := Ideal) S_ .f32 0x00000000#32)))
          (constantI S_ 1 1#1) Facts.reducesTo_S256_S_d0 Facts.h_S_) :=
  ⟨_, rfl⟩

/-- Under the precondition every entry of the variance vector is nonnegative. -/
theorem var_nonneg [Cert.Pre_finite_inputs.Facts] (x0 : FVec Ideal S50000x128 .f32) (x1 : IVec S2x640000 32)
    (x2 : FVec Ideal S128x256 .f32) (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32)
    (h : Cert.Pre_finite_inputs.fn (F := Ideal) x0 x1 x2 x3 x4 x5 x6 x7 x8 x9 x10 x11 = fun _ => 1#1) :
    ∀ j : Fin 256, 0 ≤ x11 (Idealize.ShloMosaic.ValueIdx.ix1 j) := by
  intro j
  obtain ⟨a, ha⟩ := fn_last x0 x1 x2 x3 x4 x5 x6 x7 x8 x9 x10 x11
  -- the conjunction is 1 at its one index, so its last operand is 1 there
  have h0 : andi a _ ix0 = 1#1 := (congrFun ha ix0).symm.trans (congrFun h ix0)
  have hb := (IntOp.andi_eq_one.1 h0).2
  -- an "and" over all entries that came out 1 met a 1 at entry j
  have he := Host.reduce_andi_all _ _ _ _ _ hb (ix1 j)
  -- the broadcast zero word read at entry j is the number 0
  have hz : broadcastInDim S256 ![] Facts.bcast_S_S256 (constant (F := Ideal) S_ .f32 0x00000000#32) (ix1 j) = (0 : EReal) :=
    Ideal.ofBits_zero_f32
  rw [cmpf_apply, Ideal.cmpf_def, hz] at he
  -- were var(j) below 0 the comparison would be 0, not 1
  by_contra hn
  have hc : Ideal.cmp .oge (x11 (ix1 j)) 0 = 0#1 := by simp [Ideal.cmp, hn]
  rw [hc] at he
  exact absurd he (by decide)

/-- The constant added to the variance is positive: its word has sign bit 0, exponent field 110 and fraction field
    2606508, so it is the normal number (2^23 + 2606508) · 2^(110 − 127 − 23) = 10995116 · 2^(−40). -/
theorem epsVar_pos : 0 < Cert.Sage.epsVar := by
  show (0 : EReal) < Ideal.ofBits .f32 0x3727C5AC#32
  simp [Ideal.ofBits, Ideal.ieee]
  rw [← EReal.coe_mul, EReal.coe_pos]
  positivity

end Cert.Sage.Pre

end
-- ==== Proof.KernelRun.lean ====
/-
  The idealized kernel's run with its result named.

  The program is four stretches in order: host operations, the first layer's grid of 25 row blocks, host operations,
  the second layer's grid. The contents of every buffer at each boundary are a fold from the launch memory: a host
  stretch applies its operations, a grid leaves each of its arrays at what its blocks' write-backs leave and every
  other buffer as it found it. Every weakly fair execution terminates without a fault in a state whose buffers are
  the last boundary's contents; read at the result buffer this names the result, and read at the twelve arguments
  it gives them back as launched.
-/
import proofs.«148908_j3023656976611_2_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_value : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.Sage.Run

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Blocks.lean ====
/-
  The values the two kernel bodies store, read at one entry (r, j) of a block of 2000 rows, are the row functions of
  the specification applied to row r of the blocks they load.

  Both bodies begin with the same linear map: the block of neighbours' means times Wl, plus the bias row repeated on
  every row, plus the node's own block times Wr. Each product goes into the zero accumulator, so at (r, j) it is the
  sum over the shared axis k of L(r, k) · R(k, j); a change of float format is the identity on extended reals, and a
  view of a block at its own shape is the block itself. This is lin of row r.

  Both bodies then divide a block by its rows' lengths: the squares are summed along each row, the 2000 sums are
  viewed as a column, the square root is taken and floored at the constant, and the column is repeated along the
  rows. At (r, j) this reads the dividend at (r, j) over max(√(∑ k, v(r, k)²), εn): l2n of row r. The second body does
  this twice, which is layer1.

  The first body goes on with the batch normalisation: the mean row is subtracted, the result is multiplied by the row
  γ · (σ² + εv)^(−1/2), the row β is added, each row repeated on all 2000 rows, and the positive part is taken against
  the zero word. At (r, j) only column j of the four parameter rows is read: bnRelu, hence layer0. The second store of
  the first body is the same value in a narrower float format, again the identity on extended reals.
-/
import proofs.«148908_j3023656976611_2_alg».proof.Proof.Spec
import proofs.«148908_j3023656976611_2_alg».proof.Proof.Gen.KernelIdeal.Skeleton
import proofs.«148908_j3023656976611_2_alg».proof.Proof.LibPlainDot
import proofs.«148908_j3023656976611_2_alg».proof.Proof.LibKeepDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage.Block

open Cert.KernelIdeal Cert.KernelIdeal.Gen Cert.Sage Idealize.ShloMosaic Idealize.ShloMosaic.ValueIdx

/-! ## The layout steps and the two contractions, at an entry -/

/-- A parameter row repeated on all 2000 rows reads, at (r, j), the row at column j. -/
theorem row_apply (v : FVec Ideal S1x256 .f32) (r : Fin 2000) (j : Fin 256) :
    broadcastTo S2000x256 v broadcasts_S1x256_S2000x256 (ix2 r j) = v (ix2 (0 : Fin 1) j) :=
  broadcastTo_1b_ab_apply v broadcasts_S1x256_S2000x256 r j

/-- The sum along each row of a block, at row r, is the sum over the 256 columns of that row's entries: the index
    the reduction inserts at position k is (r, k). -/
theorem lanesum_apply (v : FVec Ideal S2000x256 .f32) (hφ : FKind.Formats .f32)
    (hacc : (0x00000000#32 : BitVec 32) = 0x00000000#32) (r : Fin 2000) :
    multiReduction (F := Ideal) .add [1] S2000 v 0x00000000#32 reduces_S2000x256_S2000 hφ hacc (ix1 r)
      = ∑ k : Fin 256, v (ix2 r k) := by
  refine (Ideal.multiReduction_add_single v 0x00000000#32 reduces_S2000x256_S2000 hφ hacc (ix1 r)).trans ?_
  refine Finset.sum_congr rfl fun k _ => congrArg v ?_
  funext a
  apply Fin.ext
  match a with
  | ⟨0, _⟩ => rfl
  | ⟨1, _⟩ => rfl

/-! ## A block divided by its rows' lengths -/

/-- A block divided, entry by entry, by the floored Euclidean length of the entry's row, in the operations both bodies
    print: squares, row sums, the sums as a column, square root, the floor, the column repeated along the rows. -/
def normalise (v : FVec Ideal S2000x256 .f32) : FVec Ideal S2000x256 .f32 :=
  divf v (broadcastTo S2000x256
    (maximumf
      (sqrt (shapeCast S2000x1
        (multiReduction (F := Ideal) .add [1] S2000 (mulf v v) 0x00000000#32 reduces_S2000x256_S2000 (.inl rfl) rfl)
        shapeCasts_S2000_S2000x1))
      (broadcast S2000x1 (Scalar.ofBits (F := Ideal) .f32 0x2B8CBCCC#32)))
    broadcasts_S2000x1_S2000x256)

/-- At (r, j) that is l2n of row r: the column repeated along the rows reads row r's entry, the column reads the
    vector of sums at r, and the sum of the squares of row r is the sum over its columns. -/
theorem normalise_apply (v : FVec Ideal S2000x256 .f32) (r : Fin 2000) (j : Fin 256) :
    normalise v (ix2 r j) = l2n (fun o => v (ix2 r o)) j := by
  unfold normalise l2n
  refine congrArg (Ideal.div (v (ix2 r j))) ?_
  refine (Cert.Lib.KeepDims.broadcastTo_a1_ab_apply _ broadcasts_S2000x1_S2000x256 r j).trans ?_
  refine congrArg (fun t => max (Ideal.sqrt t) epsNorm) ?_
  refine (Cert.Lib.KeepDims.shapeCast_a_a1_apply _ shapeCasts_S2000_S2000x1 r 0).trans ?_
  exact lanesum_apply (mulf v v) _ _ r

/-- A product of a 2000×128 block and a 128×256 matrix into the zero accumulator, at (r, j): the sum over the 128
    shared positions, whatever float formats the operands carry. -/
theorem mm0_apply (L : FVec Ideal S2000x128 .bf16) (R : FVec Ideal S128x256 .bf16) (r : Fin 2000) (j : Fin 256) :
    matmul dot_S2000x128_S128x256_S2000x256_1_0_0_1_n_n none L R (constant (F := Ideal) S2000x256 .f32 0x00000000#32) (ix2 r j)
      = ∑ k : Fin 128, L (ix2 r k) * R (ix2 k j) :=
  (Ideal.matmul_constant_zero_apply dot_S2000x128_S128x256_S2000x256_1_0_0_1_n_n none L R (ix2 r j)).trans
    (Cert.LibPlainDot.sum_contr (n := 2000) (a := 128) (b := 256) L R r j)

/-- The same for a 2000×256 block and a 256×256 matrix: the sum over the 256 shared positions. -/
theorem mm1_apply (L : FVec Ideal S2000x256 .bf16) (R : FVec Ideal S256x256 .bf16) (r : Fin 2000) (j : Fin 256) :
    matmul dot_S2000x256_S256x256_S2000x256_1_0_0_1_n_n none L R (constant (F := Ideal) S2000x256 .f32 0x00000000#32) (ix2 r j)
      = ∑ k : Fin 256, L (ix2 r k) * R (ix2 k j) :=
  (Ideal.matmul_constant_zero_apply dot_S2000x256_S256x256_S2000x256_1_0_0_1_n_n none L R (ix2 r j)).trans
    (Cert.LibPlainDot.sum_contr (n := 2000) (a := 256) (b := 256) L R r j)

/-- The reciprocal square root of a vector, at an index, is that of the entry. -/
theorem rsqrt_apply {s : Shape} {φ : FTy} (v : FVec Ideal s φ) (i : s.Idx) : rsqrt v i = Ideal.rsqrt (v i) := rfl

/-! ## The linear map of each body -/

/-- The first body's linear part: the means' block through Wl, plus the bias row on every row, plus the features'
    block through Wr, in the printed operations and order. -/
def linear0 (x0 x1 : Vec Ideal S2000x128 .f32) (x2 x4 : Vec Ideal S128x256 .bf16) (x3 : Vec Ideal S1x256 .f32) :
    FVec Ideal S2000x256 .f32 :=
  addf
    (addf
      (matmul dot_S2000x128_S128x256_S2000x256_1_0_0_1_n_n none
        (truncf .bf16 (shapeCast S2000x128 x0 shapeCasts_S2000x128_S2000x128 : FVec Ideal S2000x128 .f32) bitsLt_bf16_f32)
        (shapeCast S128x256 x2 shapeCasts_S128x256_S128x256 : FVec Ideal S128x256 .bf16) (constant S2000x256 .f32 0x00000000#32))
      (broadcastTo S2000x256 (shapeCast S1x256 x3 shapeCasts_S1x256_S1x256 : FVec Ideal S1x256 .f32) broadcasts_S1x256_S2000x256))
    (matmul dot_S2000x128_S128x256_S2000x256_1_0_0_1_n_n none (truncf .bf16 (x1 : FVec Ideal S2000x128 .f32) bitsLt_bf16_f32)
      (shapeCast S128x256 x4 shapeCasts_S128x256_S128x256 : FVec Ideal S128x256 .bf16) (constant S2000x256 .f32 0x00000000#32))

/-- At (r, j) it is lin of row r of the two blocks. -/
theorem linear0_apply (x0 x1 : Vec Ideal S2000x128 .f32) (x2 x4 : Vec Ideal S128x256 .bf16) (x3 : Vec Ideal S1x256 .f32)
    (r : Fin 2000) (j : Fin 256) :
    linear0 x0 x1 x2 x4 x3 (ix2 r j)
      = lin (fun k => x0 (ix2 r k)) (fun k => x1 (ix2 r k)) (fun k o => x2 (ix2 k o)) (fun k o => x4 (ix2 k o))
          (fun o => x3 (ix2 (0 : Fin 1) o)) j := by
  unfold linear0 lin
  simp only [shapeCast_self, addf_apply]
  refine congrArg₂ (fun a b : EReal => a + b) (congrArg₂ (fun a b : EReal => a + b) ?_ ?_) ?_
  · exact mm0_apply _ _ r j
  · exact row_apply x3 r j
  · exact mm0_apply _ _ r j

/-- The second body's linear part, the same with 256 input columns. -/
def linear1 (x0 x1 : Vec Ideal S2000x256 .f32) (x2 x4 : Vec Ideal S256x256 .bf16) (x3 : Vec Ideal S1x256 .f32) :
    FVec Ideal S2000x256 .f32 :=
  addf
    (addf
      (matmul dot_S2000x256_S256x256_S2000x256_1_0_0_1_n_n none
        (truncf .bf16 (shapeCast S2000x256 x0 shapeCasts_S2000x256_S2000x256 : FVec Ideal S2000x256 .f32) bitsLt_bf16_f32)
        (shapeCast S256x256 x2 shapeCasts_S256x256_S256x256 : FVec Ideal S256x256 .bf16) (constant S2000x256 .f32 0x00000000#32))
      (broadcastTo S2000x256 (shapeCast S1x256 x3 shapeCasts_S1x256_S1x256 : FVec Ideal S1x256 .f32) broadcasts_S1x256_S2000x256))
    (matmul dot_S2000x256_S256x256_S2000x256_1_0_0_1_n_n none
      (truncf .bf16 (shapeCast S2000x256 x1 shapeCasts_S2000x256_S2000x256 : FVec Ideal S2000x256 .f32) bitsLt_bf16_f32)
      (shapeCast S256x256 x4 shapeCasts_S256x256_S256x256 : FVec Ideal S256x256 .bf16) (constant S2000x256 .f32 0x00000000#32))

/-- At (r, j) it is lin of row r of the two blocks. -/
theorem linear1_apply (x0 x1 : Vec Ideal S2000x256 .f32) (x2 x4 : Vec Ideal S256x256 .bf16) (x3 : Vec Ideal S1x256 .f32)
    (r : Fin 2000) (j : Fin 256) :
    linear1 x0 x1 x2 x4 x3 (ix2 r j)
      = lin (fun k => x0 (ix2 r k)) (fun k => x1 (ix2 r k)) (fun k o => x2 (ix2 k o)) (fun k o => x4 (ix2 k o))
          (fun o => x3 (ix2 (0 : Fin 1) o)) j := by
  unfold linear1 lin
  simp only [shapeCast_self, addf_apply]
  refine congrArg₂ (fun a b : EReal => a + b) (congrArg₂ (fun a b : EReal => a + b) ?_ ?_) ?_
  · exact mm1_apply _ _ r j
  · exact row_apply x3 r j
  · exact mm1_apply _ _ r j

/-! ## The stored values -/

/-- The second body stores its linear part normalised twice: at (r, j), layer1 of row r. The inner normalisation is read
    at every column o of row r, since the outer one sums over the whole row. -/
theorem pay1 (x0 x1 : Vec Ideal S2000x256 .f32) (x2 x4 : Vec Ideal S256x256 .bf16) (x3 : Vec Ideal S1x256 .f32)
    (r : Fin 2000) (j : Fin 256) :
    k1_pay1 (F := Ideal) x0 x1 x2 x4 x3 (ix2 r j)
      = layer1 (fun k => x0 (ix2 r k)) (fun k => x1 (ix2 r k)) (fun k o => x2 (ix2 k o)) (fun k o => x4 (ix2 k o))
          (fun o => x3 (ix2 (0 : Fin 1) o)) j := by
  have e : k1_pay1 (F := Ideal) x0 x1 x2 x4 x3 = normalise (normalise (linear1 x0 x1 x2 x4 x3)) := rfl
  refine (congrFun e (ix2 r j)).trans ?_
  unfold layer1
  refine (normalise_apply _ r j).trans ?_
  refine congrArg (fun f => l2n f j) (funext fun o => ?_)
  refine (normalise_apply _ r o).trans ?_
  exact congrArg (fun f => l2n f o) (funext fun o' => linear1_apply x0 x1 x2 x4 x3 r o')

/-- The first body's f32 store: the normalised linear part minus the mean row, times γ · (σ² + εv)^(−1/2), plus β, and the
    positive part; each parameter row is read at column j. At (r, j), layer0 of row r. -/
theorem pay0 (x0 x1 : Vec Ideal S2000x128 .f32) (x2 x4 : Vec Ideal S128x256 .bf16) (x3 x5 x6 x7 x8 : Vec Ideal S1x256 .f32)
    (r : Fin 2000) (j : Fin 256) :
    k0_pay1 (F := Ideal) (k0_pay3 x5) (k0_pay4 x6) (k0_pay5 x0 x1 x2 x4 x3 x7) (k0_pay6 x8) (ix2 r j)
      = layer0 (fun k => x0 (ix2 r k)) (fun k => x1 (ix2 r k)) (fun k o => x2 (ix2 k o)) (fun k o => x4 (ix2 k o))
          (fun o => x3 (ix2 (0 : Fin 1) o)) (fun o => x5 (ix2 (0 : Fin 1) o)) (fun o => x6 (ix2 (0 : Fin 1) o))
          (fun o => x7 (ix2 (0 : Fin 1) o)) (fun o => x8 (ix2 (0 : Fin 1) o)) j := by
  have e5 : k0_pay5 (F := Ideal) x0 x1 x2 x4 x3 x7
      = subf (normalise (linear0 x0 x1 x2 x4 x3))
          (broadcastTo S2000x256 (shapeCast S1x256 x7 shapeCasts_S1x256_S1x256 : FVec Ideal S1x256 .f32) broadcasts_S1x256_S2000x256) := rfl
  unfold k0_pay1 k0_pay3 k0_pay4 k0_pay6
  rw [e5]
  simp only [shapeCast_self, maximumf_apply, addf_apply, mulf_apply, subf_apply, broadcast_apply, row_apply, rsqrt_apply,
    normalise_apply, linear0_apply]
  unfold layer0 bnRelu
  rfl

/-- The first body's second store narrows the float format of the same block, which changes no extended real. -/
theorem pay0_bf (x0 x1 : Vec Ideal S2000x128 .f32) (x2 x4 : Vec Ideal S128x256 .bf16) (x3 x5 x6 x7 x8 : Vec Ideal S1x256 .f32)
    (r : Fin 2000) (j : Fin 256) :
    k0_pay2 (F := Ideal) (k0_pay3 x5) (k0_pay4 x6) (k0_pay5 x0 x1 x2 x4 x3 x7) (k0_pay6 x8) (ix2 r j)
      = layer0 (fun k => x0 (ix2 r k)) (fun k => x1 (ix2 r k)) (fun k o => x2 (ix2 k o)) (fun k o => x4 (ix2 k o))
          (fun o => x3 (ix2 (0 : Fin 1) o)) (fun o => x5 (ix2 (0 : Fin 1) o)) (fun o => x6 (ix2 (0 : Fin 1) o))
          (fun o => x7 (ix2 (0 : Fin 1) o)) (fun o => x8 (ix2 (0 : Fin 1) o)) j :=
  pay0 x0 x1 x2 x4 x3 x5 x6 x7 x8 r j

end Cert.Sage.Block

end
-- ==== Proof.Arrays.lean ====
/-
  From each grid point's written-back block to the whole output array, for both grids.

  Each grid has 25 points. At point t the body loads rows t · 2000 … t · 2000 + 1999 of the two row-indexed inputs and the
  whole of every other input (weights and parameter rows stay at block (0, 0)), and writes back rows
  t · 2000 … t · 2000 + 1999 of its outputs. The stored value at (r, j) of the block is the layer's row function of row r of
  the loaded blocks, which is row t · 2000 + r of the arrays: so what point t writes back is block t of the layer's
  array, L0 or L1 of the arrays the grid finds. The 25 blocks tile the 50000 rows (row i is in the block of point
  i / 2000) and there is one block column, so after the last point the output array is the layer's array everywhere.
  The first grid's second output is the same block in a narrower float format: the same array of extended reals.
-/
import proofs.«148908_j3023656976611_2_alg».proof.Proof.Spec
import proofs.«148908_j3023656976611_2_alg».proof.Proof.Blocks
import proofs.«148908_j3023656976611_2_alg».proof.Proof.Gen.KernelIdeal.Frame
import proofs.«148908_j3023656976611_2_alg».proof.Proof.Gen.KernelIdeal.Points
import Idealize.ShloMosaic.Lib.Pipeline.Value
import Idealize.ShloMosaic.Lib.ValueIdx

set_option maxRecDepth 16384

noncomputable section

namespace Cert.Sage.Arr

open Cert.KernelIdeal Cert.KernelIdeal.Gen Cert.Sage
open Idealize.ShloMosaic Idealize.ShloMosaic.TcCoe Idealize.ShloMosaic.ValueIdx
open Idealize.SL Idealize.SL.Sem
open Idealize.ShloMosaic.Pipeline (Dat Cfg Window)

/-! ## One entry of a block, over plain vectors

If row r of the two moving blocks is row i0 of their arrays and the resident blocks are their whole arrays, then the
body's stored value at (r, j) is the layer's array at (i0, j): the row function reads nothing else. -/

/-- The first body's f32 store at (r, j), for blocks that read their arrays at row i0. -/
theorem block0_at (x0 x1 : Vec Ideal S2000x128 .f32) (x2 x4 : Vec Ideal S128x256 .bf16) (x3 x5 x6 x7 x8 : Vec Ideal S1x256 .f32)
    (A X : FVec Ideal ⟨2, ![50000, 128]⟩ .f32) (Wl Wr : FVec Ideal ⟨2, ![128, 256]⟩ .f32)
    (b g be mu var : FVec Ideal ⟨1, ![256]⟩ .f32) (i0 : Fin 50000) (r : Fin 2000) (j : Fin 256)
    (h0 : ∀ k, x0 (ix2 r k) = A (ix2 i0 k)) (h1 : ∀ k, x1 (ix2 r k) = X (ix2 i0 k))
    (h2 : ∀ k o, x2 (ix2 k o) = Wl (ix2 k o)) (h4 : ∀ k o, x4 (ix2 k o) = Wr (ix2 k o))
    (h3 : ∀ o, x3 (ix2 (0 : Fin 1) o) = b (ix1 o)) (h5 : ∀ o, x5 (ix2 (0 : Fin 1) o) = g (ix1 o))
    (h6 : ∀ o, x6 (ix2 (0 : Fin 1) o) = be (ix1 o)) (h7 : ∀ o, x7 (ix2 (0 : Fin 1) o) = mu (ix1 o))
    (h8 : ∀ o, x8 (ix2 (0 : Fin 1) o) = var (ix1 o)) :
    k0_pay1 (F := Ideal) (k0_pay3 x5) (k0_pay4 x6) (k0_pay5 x0 x1 x2 x4 x3 x7) (k0_pay6 x8) (ix2 r j)
      = L0 A X Wl Wr b g be mu var (ix2 i0 j) := by
  refine (Block.pay0 x0 x1 x2 x4 x3 x5 x6 x7 x8 r j).trans ?_
  show _ = layer0 (fun k => A (ix2 i0 k)) (fun k => X (ix2 i0 k)) (fun k o => Wl (ix2 k o)) (fun k o => Wr (ix2 k o))
      (fun o => b (ix1 o)) (fun o => g (ix1 o)) (fun o => be (ix1 o)) (fun o => mu (ix1 o)) (fun o => var (ix1 o)) j
  rw [show (fun k => x0 (ix2 r k)) = (fun k => A (ix2 i0 k)) from funext h0,
    show (fun k => x1 (ix2 r k)) = (fun k => X (ix2 i0 k)) from funext h1,
    show (fun k o => x2 (ix2 k o)) = (fun k o => Wl (ix2 k o)) from funext fun k => funext (h2 k),
    show (fun k o => x4 (ix2 k o)) = (fun k o => Wr (ix2 k o)) from funext fun k => funext (h4 k),
    show (fun o => x3 (ix2 (0 : Fin 1) o)) = (fun o => b (ix1 o)) from funext h3,
    show (fun o => x5 (ix2 (0 : Fin 1) o)) = (fun o => g (ix1 o)) from funext h5,
    show (fun o => x6 (ix2 (0 : Fin 1) o)) = (fun o => be (ix1 o)) from funext h6,
    show (fun o => x7 (ix2 (0 : Fin 1) o)) = (fun o => mu (ix1 o)) from funext h7,
    show (fun o => x8 (ix2 (0 : Fin 1) o)) = (fun o => var (ix1 o)) from funext h8]

/-- The second body's store at (r, j), for blocks that read their arrays at row i0. -/
theorem block1_at (x0 x1 : Vec Ideal S2000x256 .f32) (x2 x4 : Vec Ideal S256x256 .bf16) (x3 : Vec Ideal S1x256 .f32)
    (A H : FVec Ideal ⟨2, ![50000, 256]⟩ .f32) (Wl Wr : FVec Ideal ⟨2, ![256, 256]⟩ .f32)
    (b : FVec Ideal ⟨1, ![256]⟩ .f32) (i0 : Fin 50000) (r : Fin 2000) (j : Fin 256)
    (h0 : ∀ k, x0 (ix2 r k) = A (ix2 i0 k)) (h1 : ∀ k, x1 (ix2 r k) = H (ix2 i0 k))
    (h2 : ∀ k o, x2 (ix2 k o) = Wl (ix2 k o)) (h4 : ∀ k o, x4 (ix2 k o) = Wr (ix2 k o))
    (h3 : ∀ o, x3 (ix2 (0 : Fin 1) o) = b (ix1 o)) :
    k1_pay1 (F := Ideal) x0 x1 x2 x4 x3 (ix2 r j) = L1 A H Wl Wr b (ix2 i0 j) := by
  refine (Block.pay1 x0 x1 x2 x4 x3 r j).trans ?_
  show _ = layer1 (fun k => A (ix2 i0 k)) (fun k => H (ix2 i0 k)) (fun k o => Wl (ix2 k o)) (fun k o => Wr (ix2 k o))
      (fun o => b (ix1 o)) j
  rw [show (fun k => x0 (ix2 r k)) = (fun k => A (ix2 i0 k)) from funext h0,
    show (fun k => x1 (ix2 r k)) = (fun k => H (ix2 i0 k)) from funext h1,
    show (fun k o => x2 (ix2 k o)) = (fun k o => Wl (ix2 k o)) from funext fun k => funext (h2 k),
    show (fun k o => x4 (ix2 k o)) = (fun k o => Wr (ix2 k o)) from funext fun k => funext (h4 k),
    show (fun o => x3 (ix2 (0 : Fin 1) o)) = (fun o => b (ix1 o)) from funext h3]

variable (V : (c : Dev nD) → (b : Ref sig .tc) → Buf (Elt Ideal) ((c : Thread nD τ).loc b))

/-- The offset of an access to a whole staging buffer. -/
theorem hz : (![0, 0] : Fin 2 → Nat) = fun _ => 0 := funext fun a => by fin_cases a <;> rfl

/-- A one-row array [1, 256] as its row. -/
def rowOf (v : Vec Ideal S1x256 .f32) : FVec Ideal ⟨1, ![256]⟩ .f32 := fun j => v (ix2 (0 : Fin 1) (j 0 : Fin 256))

/-- The first layer's array of the arrays the first grid finds when it is entered: the aggregated array, the features,
    the two weight matrices, and the five parameter rows. -/
def G0 (c : Dev nD) : FVec Ideal ⟨2, ![50000, 256]⟩ .f32 :=
  L0 (V c main_v23) (V c main_arg0) (V c main_v24) (V c main_v25) (rowOf (V c main_v26)) (rowOf (V c main_v27))
    (rowOf (V c main_v28)) (rowOf (V c main_v29)) (rowOf (V c main_v30))

/-- The second layer's array of the arrays the second grid finds: the aggregated array, the hidden array the first
    grid wrote, the two weight matrices and the bias row. -/
def G1 (c : Dev nD) : FVec Ideal ⟨2, ![50000, 256]⟩ .f32 :=
  L1 (V c main_v44) (V c main_v31_0) (V c main_v45) (V c main_v46) (rowOf (V c main_v47))

/-! ## The windows' index maps, decided over the 25 grid points

The two row-block inputs and the outputs are at block (t, 0) at point t; every other window stays at block (0, 0). -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)

/-! ## The input blocks, read in their arrays

A block's coordinate is its block index times the block's extent plus the coordinate inside the block. Row r of a
moving block at point t is therefore row t · 2000 + r of its array, and a resident block, at index (0, 0) with the
array's own extents, is the whole array. -/

theorem iblk0_0_at (c : Dev nD) (t : Fin cfg0.N) (r : Fin 2000) (k : Fin 128) (i0 : Fin 50000)
    (hi : i0.val = t.val * 2000 + r.val) :
    (iblk0 V c 0 t : Vec Ideal S2000x128 .f32) (ix2 r k) = (V c main_v23 : Vec Ideal S50000x128 .f32) (ix2 i0 k) := by
  show V c main_v23 (((cfg0.win 0).blk t).view.emb (ix2 r k)) = V c main_v23 (ix2 i0 k)
  refine congrArg (V c main_v23) (funext fun a => Fin.ext ?_)
  match a with
  | ⟨0, _⟩ => show win0_0.index t (0 : Fin 2) * 2000 + 1 * r.val = i0.val; rw [(idx0_0 t).1, hi]; omega
  | ⟨1, _⟩ => show win0_0.index t (1 : Fin 2) * 128 + 1 * k.val = k.val; rw [(idx0_0 t).2]; omega

theorem iblk0_1_at (c : Dev nD) (t : Fin cfg0.N) (r : Fin 2000) (k : Fin 128) (i0 : Fin 50000)
    (hi : i0.val = t.val * 2000 + r.val) :
    (iblk0 V c 1 t : Vec Ideal S2000x128 .f32) (ix2 r k) = (V c main_arg0 : Vec Ideal S50000x128 .f32) (ix2 i0 k) := by
  show V c main_arg0 (((cfg0.win 1).blk t).view.emb (ix2 r k)) = V c main_arg0 (ix2 i0 k)
  refine congrArg (V c main_arg0) (funext fun a => Fin.ext ?_)
  match a with
  | ⟨0, _⟩ => show win0_1.index t (0 : Fin 2) * 2000 + 1 * r.val = i0.val; rw [(idx0_1 t).1, hi]; omega
  | ⟨1, _⟩ => show win0_1.index t (1 : Fin 2) * 128 + 1 * k.val = k.val; rw [(idx0_1 t).2]; omega

theorem iblk0_2_eq (c : Dev nD) (t : Fin cfg0.N) : (iblk0 V c 2 t : Vec Ideal S128x256 .bf16) = V c main_v24 := by
  funext z
  show V c main_v24 (((cfg0.win 2).blk t).view.emb z) = V c main_v24 z
  refine congrArg (V c main_v24) (funext fun a => Fin.ext ?_)
  match a with
  | ⟨0, _⟩ => show win0_2.index t (0 : Fin 2) * 128 + 1 * (z 0).val = (z 0).val; rw [(idx0_2 t).1]; omega
  | ⟨1, _⟩ => show win0_2.index t (1 : Fin 2) * 256 + 1 * (z 1).val = (z 1).val; rw [(idx0_2 t).2]; omega

theorem iblk0_3_eq (c : Dev nD) (t : Fin cfg0.N) : (iblk0 V c 3 t : Vec Ideal S1x256 .f32) = V c main_v26 := by
  funext z
  show V c main_v26 (((cfg0.win 3).blk t).view.emb z) = V c main_v26 z
  refine congrArg (V c main_v26) (funext fun a => Fin.ext ?_)
  match a with
  | ⟨0, _⟩ => show win0_3.index t (0 : Fin 2) * 1 + 1 * (z 0).val = (z 0).val; rw [(idx0_3 t).1]; omega
  | ⟨1, _⟩ => show win0_3.index t (1 : Fin 2) * 256 + 1 * (z 1).val = (z 1).val; rw [(idx0_3 t).2]; omega

theorem iblk0_4_eq (c : Dev nD) (t : Fin cfg0.N) : (iblk0 V c 4 t : Vec Ideal S128x256 .bf16) = V c main_v25 := by
  funext z
  show V c main_v25 (((cfg0.win 4).blk t).view.emb z) = V c main_v25 z
  refine congrArg (V c main_v25) (funext fun a => Fin.ext ?_)
  match a with
  | ⟨0, _⟩ => show win0_4.index t (0 : Fin 2) * 128 + 1 * (z 0).val = (z 0).val; rw [(idx0_4 t).1]; omega
  | ⟨1, _⟩ => show win0_4.index t (1 : Fin 2) * 256 + 1 * (z 1).val = (z 1).val; rw [(idx0_4 t).2]; omega

theorem iblk0_5_eq (c : Dev nD) (t : Fin cfg0.N) : (iblk0 V c 5 t : Vec Ideal S1x256 .f32) = V c main_v27 := by
  funext z
  show V c main_v27 (((cfg0.win 5).blk t).view.emb z) = V c main_v27 z
  refine congrArg (V c main_v27) (funext fun a => Fin.ext ?_)
  match a with
  | ⟨0, _⟩ => show win0_5.index t (0 : Fin 2) * 1 + 1 * (z 0).val = (z 0).val; rw [(idx0_5 t).1]; omega
  | ⟨1, _⟩ => show win0_5.index t (1 : Fin 2) * 256 + 1 * (z 1).val = (z 1).val; rw [(idx0_5 t).2]; omega

theorem iblk0_6_eq (c : Dev nD) (t : Fin cfg0.N) : (iblk0 V c 6 t : Vec Ideal S1x256 .f32) = V c main_v28 := by
  funext z
  show V c main_v28 (((cfg0.win 6).blk t).view.emb z) = V c main_v28 z
  refine congrArg (V c main_v28) (funext fun a => Fin.ext ?_)
  match a with
  | ⟨0, _⟩ => show win0_6.index t (0 : Fin 2) * 1 + 1 * (z 0).val = (z 0).val; rw [(idx0_6 t).1]; omega
  | ⟨1, _⟩ => show win0_6.index t (1 : Fin 2) * 256 + 1 * (z 1).val = (z 1).val; rw [(idx0_6 t).2]; omega

theorem iblk0_7_eq (c : Dev nD) (t : Fin cfg0.N) : (iblk0 V c 7 t : Vec Ideal S1x256 .f32) = V c main_v29 := by
  funext z
  show V c main_v29 (((cfg0.win 7).blk t).view.emb z) = V c main_v29 z
  refine congrArg (V c main_v29) (funext fun a => Fin.ext ?_)
  match a with
  | ⟨0, _⟩ => show win0_7.index t (0 : Fin 2) * 1 + 1 * (z 0).val = (z 0).val; rw [(idx0_7 t).1]; omega
  | ⟨1, _⟩ => show win0_7.index t (1 : Fin 2) * 256 + 1 * (z 1).val = (z 1).val; rw [(idx0_7 t).2]; omega

theorem iblk0_8_eq (c : Dev nD) (t : Fin cfg0.N) : (iblk0 V c 8 t : Vec Ideal S1x256 .f32) = V c main_v30 := by
  funext z
  show V c main_v30 (((cfg0.win 8).blk t).view.emb z) = V c main_v30 z
  refine congrArg (V c main_v30) (funext fun a => Fin.ext ?_)
  match a with
  | ⟨0, _⟩ => show win0_8.index t (0 : Fin 2) * 1 + 1 * (z 0).val = (z 0).val; rw [(idx0_8 t).1]; omega
  | ⟨1, _⟩ => show win0_8.index t (1 : Fin 2) * 256 + 1 * (z 1).val = (z 1).val; rw [(idx0_8 t).2]; omega

theorem iblk1_0_at (c : Dev nD) (t : Fin cfg1.N) (r : Fin 2000) (k : Fin 256) (i0 : Fin 50000)
    (hi : i0.val = t.val * 2000 + r.val) :
    (iblk1 V c 0 t : Vec Ideal S2000x256 .f32) (ix2 r k) = (V c main_v44 : Vec Ideal S50000x256 .f32) (ix2 i0 k) := by
  show V c main_v44 (((cfg1.win 0).blk t).view.emb (ix2 r k)) = V c main_v44 (ix2 i0 k)
  refine congrArg (V c main_v44) (funext fun a => Fin.ext ?_)
  match a with
  | ⟨0, _⟩ => show win1_0.index t (0 : Fin 2) * 2000 + 1 * r.val = i0.val; rw [(idx1_0 t).1, hi]; omega
  | ⟨1, _⟩ => show win1_0.index t (1 : Fin 2) * 256 + 1 * k.val = k.val; rw [(idx1_0 t).2]; omega

theorem iblk1_1_at (c : Dev nD) (t : Fin cfg1.N) (r : Fin 2000) (k : Fin 256) (i0 : Fin 50000)
    (hi : i0.val = t.val * 2000 + r.val) :
    (iblk1 V c 1 t : Vec Ideal S2000x256 .f32) (ix2 r k) = (V c main_v31_0 : Vec Ideal S50000x256 .f32) (ix2 i0 k) := by
  show V c main_v31_0 (((cfg1.win 1).blk t).view.emb (ix2 r k)) = V c main_v31_0 (ix2 i0 k)
  refine congrArg (V c main_v31_0) (funext fun a => Fin.ext ?_)
  match a with
  | ⟨0, _⟩ => show win1_1.index t (0 : Fin 2) * 2000 + 1 * r.val = i0.val; rw [(idx1_1 t).1, hi]; omega
  | ⟨1, _⟩ => show win1_1.index t (1 : Fin 2) * 256 + 1 * k.val = k.val; rw [(idx1_1 t).2]; omega

theorem iblk1_2_eq (c : Dev nD) (t : Fin cfg1.N) : (iblk1 V c 2 t : Vec Ideal S256x256 .bf16) = V c main_v45 := by
  funext z
  show V c main_v45 (((cfg1.win 2).blk t).view.emb z) = V c main_v45 z
  refine congrArg (V c main_v45) (funext fun a => Fin.ext ?_)
  match a with
  | ⟨0, _⟩ => show win1_2.index t (0 : Fin 2) * 256 + 1 * (z 0).val = (z 0).val; rw [(idx1_2 t).1]; omega
  | ⟨1, _⟩ => show win1_2.index t (1 : Fin 2) * 256 + 1 * (z 1).val = (z 1).val; rw [(idx1_2 t).2]; omega

theorem iblk1_3_eq (c : Dev nD) (t : Fin cfg1.N) : (iblk1 V c 3 t : Vec Ideal S1x256 .f32) = V c main_v47 := by
  funext z
  show V c main_v47 (((cfg1.win 3).blk t).view.emb z) = V c main_v47 z
  refine congrArg (V c main_v47) (funext fun a => Fin.ext ?_)
  match a with
  | ⟨0, _⟩ => show win1_3.index t (0 : Fin 2) * 1 + 1 * (z 0).val = (z 0).val; rw [(idx1_3 t).1]; omega
  | ⟨1, _⟩ => show win1_3.index t (1 : Fin 2) * 256 + 1 * (z 1).val = (z 1).val; rw [(idx1_3 t).2]; omega

theorem iblk1_4_eq (c : Dev nD) (t : Fin cfg1.N) : (iblk1 V c 4 t : Vec Ideal S256x256 .bf16) = V c main_v46 := by
  funext z
  show V c main_v46 (((cfg1.win 4).blk t).view.emb z) = V c main_v46 z
  refine congrArg (V c main_v46) (funext fun a => Fin.ext ?_)
  match a with
  | ⟨0, _⟩ => show win1_4.index t (0 : Fin 2) * 256 + 1 * (z 0).val = (z 0).val; rw [(idx1_4 t).1]; omega
  | ⟨1, _⟩ => show win1_4.index t (1 : Fin 2) * 256 + 1 * (z 1).val = (z 1).val; rw [(idx1_4 t).2]; omega

/-! ## The output blocks

Point t writes back rows t · 2000 … t · 2000 + 1999, all 256 columns. A block whose entry (r, j) is the array's entry
(t · 2000 + r, j) is therefore block t of the array, read through the window. -/

theorem tile0_9 (t : Fin cfg0.N) (P : Vec Ideal S2000x256 .f32) (Gf : FVec Ideal ⟨2, ![50000, 256]⟩ .f32)
    (h : ∀ (r : Fin 2000) (j : Fin 256) (i0 : Fin 50000), i0.val = t.val * 2000 + r.val → P (ix2 r j) = Gf (ix2 i0 j)) :
    (cfg0.win 9).cut (grid0.coords t) P = ((cfg0.win 9).blk t).view.read (Elt Ideal) Gf := by
  funext y
  have hy0 : (y 0).val < 2000 := (y 0).isLt
  have hy1 : (y 1).val < 256 := (y 1).isLt
  have ht : t.val < 25 := t.isLt
  have hx : (win0 9).xinj (grid0.coords t) y = ix2 (⟨(y 0).val, hy0⟩ : Fin 2000) (⟨(y 1).val, hy1⟩ : Fin 256) :=
    funext fun a => Fin.ext (by match a with | ⟨0, _⟩ => rfl | ⟨1, _⟩ => rfl)
  have he : ((cfg0.win 9).blk t).view.emb y
      = ix2 (⟨t.val * 2000 + (y 0).val, by omega⟩ : Fin 50000) (⟨(y 1).val, hy1⟩ : Fin 256) :=
    funext fun a => Fin.ext (by
      match a with
      | ⟨0, _⟩ => show win0_9.index t (0 : Fin 2) * 2000 + 1 * (y 0).val = t.val * 2000 + (y 0).val; rw [(idx0_9 t).1]; omega
      | ⟨1, _⟩ => show win0_9.index t (1 : Fin 2) * 256 + 1 * (y 1).val = (y 1).val; rw [(idx0_9 t).2]; omega)
  show P ((win0 9).xinj (grid0.coords t) y) = Gf (((cfg0.win 9).blk t).view.emb y)
  exact (congrArg P hx).trans ((h _ _ _ rfl).trans (congrArg Gf he.symm))

theorem tile0_10 (t : Fin cfg0.N) (P : Vec Ideal S2000x256 .bf16) (Gf : FVec Ideal ⟨2, ![50000, 256]⟩ .f32)
    (h : ∀ (r : Fin 2000) (j : Fin 256) (i0 : Fin 50000), i0.val = t.val * 2000 + r.val → P (ix2 r j) = Gf (ix2 i0 j)) :
    (cfg0.win 10).cut (grid0.coords t) P = ((cfg0.win 10).blk t).view.read (Elt Ideal) Gf := by
  funext y
  have hy0 : (y 0).val < 2000 := (y 0).isLt
  have hy1 : (y 1).val < 256 := (y 1).isLt
  have ht : t.val < 25 := t.isLt
  have hx : (win0 10).xinj (grid0.coords t) y = ix2 (⟨(y 0).val, hy0⟩ : Fin 2000) (⟨(y 1).val, hy1⟩ : Fin 256) :=
    funext fun a => Fin.ext (by match a with | ⟨0, _⟩ => rfl | ⟨1, _⟩ => rfl)
  have he : ((cfg0.win 10).blk t).view.emb y
      = ix2 (⟨t.val * 2000 + (y 0).val, by omega⟩ : Fin 50000) (⟨(y 1).val, hy1⟩ : Fin 256) :=
    funext fun a => Fin.ext (by
      match a with
      | ⟨0, _⟩ => show win0_10.index t (0 : Fin 2) * 2000 + 1 * (y 0).val = t.val * 2000 + (y 0).val; rw [(idx0_10 t).1]; omega
      | ⟨1, _⟩ => show win0_10.index t (1 : Fin 2) * 256 + 1 * (y 1).val = (y 1).val; rw [(idx0_10 t).2]; omega)
  show P ((win0 10).xinj (grid0.coords t) y) = Gf (((cfg0.win 10).blk t).view.emb y)
  exact (congrArg P hx).trans ((h _ _ _ rfl).trans (congrArg Gf he.symm))

theorem tile1_5 (t : Fin cfg1.N) (P : Vec Ideal S2000x256 .f32) (Gf : FVec Ideal ⟨2, ![50000, 256]⟩ .f32)
    (h : ∀ (r : Fin 2000) (j : Fin 256) (i0 : Fin 50000), i0.val = t.val * 2000 + r.val → P (ix2 r j) = Gf (ix2 i0 j)) :
    (cfg1.win 5).cut (grid1.coords t) P = ((cfg1.win 5).blk t).view.read (Elt Ideal) Gf := by
  funext y
  have hy0 : (y 0).val < 2000 := (y 0).isLt
  have hy1 : (y 1).val < 256 := (y 1).isLt
  have ht : t.val < 25 := t.isLt
  have hx : (win1 5).xinj (grid1.coords t) y = ix2 (⟨(y 0).val, hy0⟩ : Fin 2000) (⟨(y 1).val, hy1⟩ : Fin 256) :=
    funext fun a => Fin.ext (by match a with | ⟨0, _⟩ => rfl | ⟨1, _⟩ => rfl)
  have he : ((cfg1.win 5).blk t).view.emb y
      = ix2 (⟨t.val * 2000 + (y 0).val, by omega⟩ : Fin 50000) (⟨(y 1).val, hy1⟩ : Fin 256) :=
    funext fun a => Fin.ext (by
      match a with
      | ⟨0, _⟩ => show win1_5.index t (0 : Fin 2) * 2000 + 1 * (y 0).val = t.val * 2000 + (y 0).val; rw [(idx1_5 t).1]; omega
      | ⟨1, _⟩ => show win1_5.index t (1 : Fin 2) * 256 + 1 * (y 1).val = (y 1).val; rw [(idx1_5 t).2]; omega)
  show P ((win1 5).xinj (grid1.coords t) y) = Gf (((cfg1.win 5).blk t).view.emb y)
  exact (congrArg P hx).trans ((h _ _ _ rfl).trans (congrArg Gf he.symm))

/-! ## The blocks tile the array

An index is in point t's block iff each coordinate is in the block's range on its axis; 50000 = 25 · 2000 and there is
one block column, so row i lies in the block of point i / 2000. -/

theorem mem_blk0_9 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v31_0).slice (win0_9.rect t)).set ↔ _
  rw [View.set_slice_whole, Rect.mem_set_unit]
  exact Iff.rfl

theorem covered0_9 (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have hq : (i 0).val / 2000 < 25 := by omega
  refine ⟨⟨(i 0).val / 2000, hq⟩, flush0_9 _, ?_⟩
  rw [mem_blk0_9]
  intro a
  match a with
  | ⟨0, _⟩ =>
    show win0_9.index ⟨(i 0).val / 2000, hq⟩ (0 : Fin 2) * 2000 ≤ (i 0).val
      ∧ (i 0).val < win0_9.index ⟨(i 0).val / 2000, hq⟩ (0 : Fin 2) * 2000 + 2000
    rw [(idx0_9 ⟨(i 0).val / 2000, hq⟩).1]
    show (i 0).val / 2000 * 2000 ≤ (i 0).val ∧ (i 0).val < (i 0).val / 2000 * 2000 + 2000
    omega
  | ⟨1, _⟩ =>
    show win0_9.index ⟨(i 0).val / 2000, hq⟩ (1 : Fin 2) * 256 ≤ (i 1).val
      ∧ (i 1).val < win0_9.index ⟨(i 0).val / 2000, hq⟩ (1 : Fin 2) * 256 + 256
    rw [(idx0_9 ⟨(i 0).val / 2000, hq⟩).2]
    omega

theorem mem_blk0_10 (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v31_1).slice (win0_10.rect t)).set ↔ _
  rw [View.set_slice_whole, Rect.mem_set_unit]
  exact Iff.rfl

theorem covered0_10 (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hq : (i 0).val / 2000 < 25 := by omega
  refine ⟨⟨(i 0).val / 2000, hq⟩, flush0_10 _, ?_⟩
  rw [mem_blk0_10]
  intro a
  match a with
  | ⟨0, _⟩ =>
    show win0_10.index ⟨(i 0).val / 2000, hq⟩ (0 : Fin 2) * 2000 ≤ (i 0).val
      ∧ (i 0).val < win0_10.index ⟨(i 0).val / 2000, hq⟩ (0 : Fin 2) * 2000 + 2000
    rw [(idx0_10 ⟨(i 0).val / 2000, hq⟩).1]
    show (i 0).val / 2000 * 2000 ≤ (i 0).val ∧ (i 0).val < (i 0).val / 2000 * 2000 + 2000
    omega
  | ⟨1, _⟩ =>
    show win0_10.index ⟨(i 0).val / 2000, hq⟩ (1 : Fin 2) * 256 ≤ (i 1).val
      ∧ (i 1).val < win0_10.index ⟨(i 0).val / 2000, hq⟩ (1 : Fin 2) * 256 + 256
    rw [(idx0_10 ⟨(i 0).val / 2000, hq⟩).2]
    omega

theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v48).slice (win1_5.rect t)).set ↔ _
  rw [View.set_slice_whole, Rect.mem_set_unit]
  exact Iff.rfl

theorem covered1_5 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hq : (i 0).val / 2000 < 25 := by omega
  refine ⟨⟨(i 0).val / 2000, hq⟩, flush1_5 _, ?_⟩
  rw [mem_blk1_5]
  intro a
  match a with
  | ⟨0, _⟩ =>
    show win1_5.index ⟨(i 0).val / 2000, hq⟩ (0 : Fin 2) * 2000 ≤ (i 0).val
      ∧ (i 0).val < win1_5.index ⟨(i 0).val / 2000, hq⟩ (0 : Fin 2) * 2000 + 2000
    rw [(idx1_5 ⟨(i 0).val / 2000, hq⟩).1]
    show (i 0).val / 2000 * 2000 ≤ (i 0).val ∧ (i 0).val < (i 0).val / 2000 * 2000 + 2000
    omega
  | ⟨1, _⟩ =>
    show win1_5.index ⟨(i 0).val / 2000, hq⟩ (1 : Fin 2) * 256 ≤ (i 1).val
      ∧ (i 1).val < win1_5.index ⟨(i 0).val / 2000, hq⟩ (1 : Fin 2) * 256 + 256
    rw [(idx1_5 ⟨(i 0).val / 2000, hq⟩).2]
    omega

/-! ## What each point writes back, and the arrays after the grids -/

/-- At point t the first body's f32 store at (r, j) is the first layer's array at (t · 2000 + r, j). -/
theorem point0_at (c : Dev nD) (t : Fin cfg0.N) (r : Fin 2000) (j : Fin 256) (i0 : Fin 50000)
    (hi : i0.val = t.val * 2000 + r.val) :
    k0_pay1 (F := Ideal) (k0_pay3 (iblk0 V c 5 t)) (k0_pay4 (iblk0 V c 6 t))
        (k0_pay5 (iblk0 V c 0 t) (iblk0 V c 1 t) (iblk0 V c 2 t) (iblk0 V c 4 t) (iblk0 V c 3 t) (iblk0 V c 7 t))
        (k0_pay6 (iblk0 V c 8 t)) (ix2 r j)
      = G0 V c (ix2 i0 j) :=
  block0_at (iblk0 V c 0 t) (iblk0 V c 1 t) (iblk0 V c 2 t) (iblk0 V c 4 t) (iblk0 V c 3 t) (iblk0 V c 5 t) (iblk0 V c 6 t)
    (iblk0 V c 7 t) (iblk0 V c 8 t) (V c main_v23) (V c main_arg0) (V c main_v24) (V c main_v25) (rowOf (V c main_v26))
    (rowOf (V c main_v27)) (rowOf (V c main_v28)) (rowOf (V c main_v29)) (rowOf (V c main_v30)) i0 r j
    (fun k => iblk0_0_at V c t r k i0 hi) (fun k => iblk0_1_at V c t r k i0 hi)
    (fun k o => congrFun (iblk0_2_eq V c t) (ix2 k o)) (fun k o => congrFun (iblk0_4_eq V c t) (ix2 k o))
    (fun o => congrFun (iblk0_3_eq V c t) (ix2 (0 : Fin 1) o)) (fun o => congrFun (iblk0_5_eq V c t) (ix2 (0 : Fin 1) o))
    (fun o => congrFun (iblk0_6_eq V c t) (ix2 (0 : Fin 1) o)) (fun o => congrFun (iblk0_7_eq V c t) (ix2 (0 : Fin 1) o))
    (fun o => congrFun (iblk0_8_eq V c t) (ix2 (0 : Fin 1) o))

/-- Point t writes back block t of the first layer's array: the one store covers the staging buffer, each load reads a
    whole staging buffer, and the stored block is the layer's array entry by entry. -/
theorem flushed0_9_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x256) hz, View.ld_unit_zero (S := S1x256) hz]
  exact tile0_9 t _ (G0 V c) fun r j i0 hi => point0_at V c t r j i0 hi

/-- The narrower copy likewise: on extended reals it is the same block. -/
theorem flushed0_10_eq (c : Dev nD) (t : Fin cfg0.N) :
    (dat0 V c).flushed 10 t = ((cfg0.win 10).blk t).view.read (Elt Ideal) (G0 V c) := by
  show (cfg0.win 10).cut (grid0.coords t) ((dat0 V c).after 10 t) = _
  rw [after0_10]
  unfold out0_10
  rw [View.canon_unit_zero hz]
  simp only [View.ld_unit_zero (S := S2000x128) hz, View.ld_unit_zero (S := S128x256) hz, View.ld_unit_zero (S := S1x256) hz]
  exact tile0_10 t _ (G0 V c) fun r j i0 hi => point0_at V c t r j i0 hi

/-- After the 25 points the first output array is the first layer's array. -/
theorem final0_9 (c : Dev nD) : (dat0 V c).arrAt 9 cfg0.N = G0 V c :=
  (dat0 V c).arrAt_eq_of_cover 9 (G0 V c) (fun t _ => flushed0_9_eq V c t) covered0_9

/-- So is its narrower copy. -/
theorem final0_10 (c : Dev nD) : (dat0 V c).arrAt 10 cfg0.N = G0 V c :=
  (dat0 V c).arrAt_eq_of_cover 10 (G0 V c) (fun t _ => flushed0_10_eq V c t) covered0_10

/-- At point t the second body's store at (r, j) is the second layer's array at (t · 2000 + r, j). -/
theorem point1_at (c : Dev nD) (t : Fin cfg1.N) (r : Fin 2000) (j : Fin 256) (i0 : Fin 50000)
    (hi : i0.val = t.val * 2000 + r.val) :
    k1_pay1 (F := Ideal) (iblk1 V c 0 t) (iblk1 V c 1 t) (iblk1 V c 2 t) (iblk1 V c 4 t) (iblk1 V c 3 t) (ix2 r j)
      = G1 V c (ix2 i0 j) :=
  block1_at (iblk1 V c 0 t) (iblk1 V c 1 t) (iblk1 V c 2 t) (iblk1 V c 4 t) (iblk1 V c 3 t)
    (V c main_v44) (V c main_v31_0) (V c main_v45) (V c main_v46) (rowOf (V c main_v47)) i0 r j
    (fun k => iblk1_0_at V c t r k i0 hi) (fun k => iblk1_1_at V c t r k i0 hi)
    (fun k o => congrFun (iblk1_2_eq V c t) (ix2 k o)) (fun k o => congrFun (iblk1_4_eq V c t) (ix2 k o))
    (fun o => congrFun (iblk1_3_eq V c t) (ix2 (0 : Fin 1) o))

/-- Point t of the second grid writes back block t of the second layer's array. -/
theorem flushed1_5_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  exact tile1_5 t _ (G1 V c) fun r j i0 hi => point1_at V c t r j i0 hi

/-- After the 25 points the second grid's output array is the second layer's array. -/
theorem final1_5 (c : Dev nD) : (dat1 V c).arrAt 5 cfg1.N = G1 V c :=
  (dat1 V c).arrAt_eq_of_cover 5 (G1 V c) (fun t _ => flushed1_5_eq V c t) covered1_5

end Cert.Sage.Arr

end
-- ==== Proof.Host0.lean ====
/-
  What the first grid finds in its arrays, as functions of the program's arguments.

  Before the first grid the host computes, from the edge list, the mean of each node's in-neighbours' feature rows:
  the rows gathered at the edges' sources are summed at the edges' destinations and divided by the number of
  in-edges floored at one. These are the operations the reference applies, on the same operands; the only
  difference is that the features pass through a narrower float format and back on their way through the gather,
  which is the identity on the extended reals. The weights likewise only change format, the features themselves
  are untouched, and each of the five parameter vectors is viewed as a one-row array.
-/
import proofs.«148908_j3023656976611_2_alg».proof.Proof.Spec
import proofs.«148908_j3023656976611_2_alg».proof.Proof.Gen.KernelIdeal.Frame
import proofs.«148908_j3023656976611_2_alg».proof.Proof.RefReadP
import Idealize.ShloMosaic.Lib.StableHlo.Run
import Idealize.ShloMosaic.Lib.Pipeline.Value
import Idealize.ShloMosaic.Lib.ValueIdx

set_option maxRecDepth 16384

noncomputable section

namespace Cert.Sage.Host0

open Cert.KernelIdeal Cert.KernelIdeal.Gen Cert.Sage
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

open Cert.ReferenceIdeal.ReadP in
set_option maxHeartbeats 4000000 in
/-- The first grid's aggregated array is the reference's: the same gather, sums and quotient of the features and the
    edge list. -/
theorem agg (c : Dev nD) :
    (V1 m ρ c main_v23 : S50000x128.Idx → EReal)
      = val_main_v21 (F := Ideal) (m ((c.tc : Thread nD τ).loc main_arg0)) (m ((c.tc : Thread nD τ).loc main_arg1)) := by
  show StableHlo.after hostOps0 (W0 m ρ c) (Proc.devRef .tc main_v23) = _
  after_results_simp <;> rfl

set_option maxHeartbeats 4000000 in
/-- The features reach the first grid as launched. -/
theorem feat (c : Dev nD) : V1 m ρ c main_arg0 = (m ((c.tc : Thread nD τ).loc main_arg0)) := by
  show StableHlo.after hostOps0 (W0 m ρ c) (Proc.devRef .tc main_arg0) = _
  after_results_simp <;> rfl

set_option maxHeartbeats 4000000 in
/-- The neighbour weights only change float format on the way in. -/
theorem wl (c : Dev nD) : (V1 m ρ c main_v24 : S128x256.Idx → EReal) = (m ((c.tc : Thread nD τ).loc main_arg2)) := by
  show StableHlo.after hostOps0 (W0 m ρ c) (Proc.devRef .tc main_v24) = _
  after_results_simp <;> rfl

set_option maxHeartbeats 4000000 in
/-- The root weights only change float format on the way in. -/
theorem wr (c : Dev nD) : (V1 m ρ c main_v25 : S128x256.Idx → EReal) = (m ((c.tc : Thread nD τ).loc main_arg4)) := by
  show StableHlo.after hostOps0 (W0 m ρ c) (Proc.devRef .tc main_v25) = _
  after_results_simp <;> rfl

/-- The bias enters the first grid as the one row of a [1, 256] array: a row-major view keeps an element's position,
    and position j of the vector is position 0 · 256 + j of the row. -/
theorem bias (c : Dev nD) (j : Fin 256) :
    V1 m ρ c main_v26 (ix2 (0 : Fin 1) j) = (m ((c.tc : Thread nD τ).loc main_arg3)) (ix1 j) := by
  have e : (V1 m ρ c main_v26 : S1x256.Idx → EReal) = shapeCast S1x256 (m ((c.tc : Thread nD τ).loc main_arg3)) shapeCasts_S256_S1x256 := by
    show StableHlo.after hostOps0 (W0 m ρ c) (Proc.devRef .tc main_v26) = _
    after_results_simp <;> rfl
  rw [e]
  exact shapeCast_apply _ shapeCasts_S256_S1x256 _ _ (by
    rw [Shape.rowMajor_val_two, Shape.rowMajor_val_one]
    show j.val = 0 * 256 + j.val
    omega)

/-- The scale enters the first grid as the one row of a [1, 256] array: a row-major view keeps an element's position,
    and position j of the vector is position 0 · 256 + j of the row. -/
theorem gamma (c : Dev nD) (j : Fin 256) :
    V1 m ρ c main_v27 (ix2 (0 : Fin 1) j) = (m ((c.tc : Thread nD τ).loc main_arg8)) (ix1 j) := by
  have e : (V1 m ρ c main_v27 : S1x256.Idx → EReal) = shapeCast S1x256 (m ((c.tc : Thread nD τ).loc main_arg8)) shapeCasts_S256_S1x256 := by
    show StableHlo.after hostOps0 (W0 m ρ c) (Proc.devRef .tc main_v27) = _
    after_results_simp <;> rfl
  rw [e]
  exact shapeCast_apply _ shapeCasts_S256_S1x256 _ _ (by
    rw [Shape.rowMajor_val_two, Shape.rowMajor_val_one]
    show j.val = 0 * 256 + j.val
    omega)

/-- The shift enters the first grid as the one row of a [1, 256] array: a row-major view keeps an element's position,
    and position j of the vector is position 0 · 256 + j of the row. -/
theorem beta (c : Dev nD) (j : Fin 256) :
    V1 m ρ c main_v28 (ix2 (0 : Fin 1) j) = (m ((c.tc : Thread nD τ).loc main_arg9)) (ix1 j) := by
  have e : (V1 m ρ c main_v28 : S1x256.Idx → EReal) = shapeCast S1x256 (m ((c.tc : Thread nD τ).loc main_arg9)) shapeCasts_S256_S1x256 := by
    show StableHlo.after hostOps0 (W0 m ρ c) (Proc.devRef .tc main_v28) = _
    after_results_simp <;> rfl
  rw [e]
  exact shapeCast_apply _ shapeCasts_S256_S1x256 _ _ (by
    rw [Shape.rowMajor_val_two, Shape.rowMajor_val_one]
    show j.val = 0 * 256 + j.val
    omega)

/-- The running mean enters the first grid as the one row of a [1, 256] array: a row-major view keeps an element's position,
    and position j of the vector is position 0 · 256 + j of the row. -/
theorem mean (c : Dev nD) (j : Fin 256) :
    V1 m ρ c main_v29 (ix2 (0 : Fin 1) j) = (m ((c.tc : Thread nD τ).loc main_arg10)) (ix1 j) := by
  have e : (V1 m ρ c main_v29 : S1x256.Idx → EReal) = shapeCast S1x256 (m ((c.tc : Thread nD τ).loc main_arg10)) shapeCasts_S256_S1x256 := by
    show StableHlo.after hostOps0 (W0 m ρ c) (Proc.devRef .tc main_v29) = _
    after_results_simp <;> rfl
  rw [e]
  exact shapeCast_apply _ shapeCasts_S256_S1x256 _ _ (by
    rw [Shape.rowMajor_val_two, Shape.rowMajor_val_one]
    show j.val = 0 * 256 + j.val
    omega)

/-- The running variance enters the first grid as the one row of a [1, 256] array: a row-major view keeps an element's position,
    and position j of the vector is position 0 · 256 + j of the row. -/
theorem var (c : Dev nD) (j : Fin 256) :
    V1 m ρ c main_v30 (ix2 (0 : Fin 1) j) = (m ((c.tc : Thread nD τ).loc main_arg11)) (ix1 j) := by
  have e : (V1 m ρ c main_v30 : S1x256.Idx → EReal) = shapeCast S1x256 (m ((c.tc : Thread nD τ).loc main_arg11)) shapeCasts_S256_S1x256 := by
    show StableHlo.after hostOps0 (W0 m ρ c) (Proc.devRef .tc main_v30) = _
    after_results_simp <;> rfl
  rw [e]
  exact shapeCast_apply _ shapeCasts_S256_S1x256 _ _ (by
    rw [Shape.rowMajor_val_two, Shape.rowMajor_val_one]
    show j.val = 0 * 256 + j.val
    omega)

end Cert.Sage.Host0

end
-- ==== Proof.Host1.lean ====
/-
  What the second grid finds in its arrays.

  Between the two grids the host repeats the neighbourhood mean, now on the first layer's hidden rows: the rows of
  the first grid's narrow-format copy gathered at the edges' sources, summed at the destinations and divided by the
  in-edge count computed before the first grid. The first grid writes only its two output arrays, so the edge
  sources, the edge destinations and the count are still what the first host stretch left, and the arguments are as
  launched. The hidden array itself is passed on untouched, the second layer's weights only change float format, and
  its bias is viewed as a one-row array.
-/
import proofs.«148908_j3023656976611_2_alg».proof.Proof.Spec
import proofs.«148908_j3023656976611_2_alg».proof.Proof.Gen.KernelIdeal.Frame
import proofs.«148908_j3023656976611_2_alg».proof.Proof.RefReadP
import Idealize.ShloMosaic.Lib.StableHlo.Run
import Idealize.ShloMosaic.Lib.Pipeline.Value
import Idealize.ShloMosaic.Lib.ValueIdx

set_option maxRecDepth 16384

noncomputable section

namespace Cert.Sage.Host1

open Cert.KernelIdeal Cert.KernelIdeal.Gen Cert.Sage
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

open Cert.ReferenceIdeal.ReadP

/-- The neighbourhood mean of a hidden array h over the edge list x1, in the reference's operations: rows of h gathered
    at the sources, summed at the destinations, divided by the in-edge count floored at one. -/
def agg256 (h : FVec Ideal S50000x256 .f32) (x1 : IVec S2x640000 32) : FVec Ideal S50000x256 .f32 :=
  Host.divf (F := Ideal)
    (Host.scatterAdd (F := Ideal) Cert.ReferenceIdeal.scatter_S50000x256_S640000x1_S640000x256_1_0_0_1 (val_main_v57 (F := Ideal))
      (val_main_v58 (F := Ideal) x1)
      (Host.gather Cert.ReferenceIdeal.gather_S50000x256_S640000x1_S640000x256_1_0_n_n_0_1_1256 h (val_main_v55 (F := Ideal) x1)))
    (val_main_v66 (F := Ideal) x1)

/-- The reference's second aggregation is that mean of its own hidden array. -/
theorem ref_agg (x0 : FVec Ideal S50000x128 .f32) (x1 : IVec S2x640000 32) (x2 : FVec Ideal S128x256 .f32)
    (x3 : FVec Ideal S256 .f32) (x4 : FVec Ideal S128x256 .f32) (x8 x9 x10 x11 : FVec Ideal S256 .f32) :
    val_main_v67 (F := Ideal) x0 x1 x2 x3 x4 x8 x9 x10 x11
      = agg256 (val_main_v49 (F := Ideal) x0 x1 x2 x3 x4 x8 x9 x10 x11) x1 := rfl

set_option maxHeartbeats 4000000 in
/-- The edges' sources are still what the first host stretch read off the edge list. -/
theorem src (c : Dev nD) : W2 m ρ c (Proc.devRef .tc main_v1) = val_main_v1 (F := Ideal) (m ((c.tc : Thread nD τ).loc main_arg1)) := by
  rw [W2_of_ne m ρ c main_v1 (by decide)]
  show StableHlo.after hostOps0 (W0 m ρ c) (Proc.devRef .tc main_v1) = _
  after_results_simp <;> rfl

set_option maxHeartbeats 4000000 in
/-- The edges' destinations likewise. -/
theorem dst (c : Dev nD) : W2 m ρ c (Proc.devRef .tc main_v3) = val_main_v3 (F := Ideal) (m ((c.tc : Thread nD τ).loc main_arg1)) := by
  rw [W2_of_ne m ρ c main_v3 (by decide)]
  show StableHlo.after hostOps0 (W0 m ρ c) (Proc.devRef .tc main_v3) = _
  after_results_simp <;> rfl

set_option maxHeartbeats 4000000 in
/-- The in-edge count floored at one, computed before the first grid, is the one the reference recomputes. -/
theorem cnt (c : Dev nD) : W2 m ρ c (Proc.devRef .tc main_v9) = val_main_v65 (F := Ideal) (m ((c.tc : Thread nD τ).loc main_arg1)) := by
  rw [W2_of_ne m ρ c main_v9 (by decide)]
  show StableHlo.after hostOps0 (W0 m ρ c) (Proc.devRef .tc main_v9) = _
  after_results_simp <;> rfl

set_option maxHeartbeats 4000000 in
/-- The second layer's neighbour weights are as launched. -/
theorem a5 (c : Dev nD) : W2 m ρ c (Proc.devRef .tc main_arg5) = (m ((c.tc : Thread nD τ).loc main_arg5)) := by
  rw [W2_of_ne m ρ c main_arg5 (by decide)]
  show StableHlo.after hostOps0 (W0 m ρ c) (Proc.devRef .tc main_arg5) = _
  after_results_simp <;> rfl

set_option maxHeartbeats 4000000 in
/-- The second layer's bias is as launched. -/
theorem a6 (c : Dev nD) : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results_simp <;> rfl

set_option maxHeartbeats 4000000 in
/-- The second layer's root weights are as launched. -/
theorem a7 (c : Dev nD) : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results_simp <;> rfl

set_option maxHeartbeats 4000000 in
/-- The second grid's aggregated array is the neighbourhood mean of the first grid's narrow-format output. -/
theorem agg (c : Dev nD) :
    (V3 m ρ c main_v44 : S50000x256.Idx → EReal) = agg256 (W2 m ρ c (Proc.devRef .tc main_v31_1)) (m ((c.tc : Thread nD τ).loc main_arg1)) := by
  show StableHlo.after hostOps1 (W2 m ρ c) (Proc.devRef .tc main_v44) = _
  after_results_simp
  rw [src m ρ c, dst m ρ c, cnt m ρ c]
  rfl

set_option maxHeartbeats 4000000 in
/-- The hidden array is passed to the second grid untouched. -/
theorem hid (c : Dev nD) : V3 m ρ c main_v31_0 = W2 m ρ c (Proc.devRef .tc main_v31_0) := by
  show StableHlo.after hostOps1 (W2 m ρ c) (Proc.devRef .tc main_v31_0) = _
  after_results_simp <;> rfl

set_option maxHeartbeats 4000000 in
/-- The neighbour weights only change float format on the way in. -/
theorem wl (c : Dev nD) : (V3 m ρ c main_v45 : S256x256.Idx → EReal) = (m ((c.tc : Thread nD τ).loc main_arg5)) := by
  show StableHlo.after hostOps1 (W2 m ρ c) (Proc.devRef .tc main_v45) = _
  after_results_simp
  rw [a5 m ρ c]
  rfl

set_option maxHeartbeats 4000000 in
/-- The root weights only change float format on the way in. -/
theorem wr (c : Dev nD) : (V3 m ρ c main_v46 : S256x256.Idx → EReal) = (m ((c.tc : Thread nD τ).loc main_arg7)) := by
  show StableHlo.after hostOps1 (W2 m ρ c) (Proc.devRef .tc main_v46) = _
  after_results_simp
  rw [a7 m ρ c]
  rfl

set_option maxHeartbeats 4000000 in
/-- The bias enters the second grid as the one row of a [1, 256] array: a row-major view keeps an element's position. -/
theorem bias (c : Dev nD) (j : Fin 256) :
    V3 m ρ c main_v47 (ix2 (0 : Fin 1) j) = (m ((c.tc : Thread nD τ).loc main_arg6)) (ix1 j) := by
  have e : (V3 m ρ c main_v47 : S1x256.Idx → EReal) = shapeCast S1x256 (m ((c.tc : Thread nD τ).loc main_arg6)) shapeCasts_S256_S1x256 := by
    show StableHlo.after hostOps1 (W2 m ρ c) (Proc.devRef .tc main_v47) = _
    after_results_simp
    rw [a6 m ρ c]
    rfl
  rw [e]
  exact shapeCast_apply _ shapeCasts_S256_S1x256 _ _ (by
    rw [Shape.rowMajor_val_two, Shape.rowMajor_val_one]
    show j.val = 0 * 256 + j.val
    omega)

end Cert.Sage.Host1

end
-- ==== Proof.RefLayers.lean ====
/-
  The reference program's two layers are the specification's array functions.

  Each layer of the reference is a chain of whole-array operations. Read at one entry (row p, column q) the chain is the
  specification's row function of row p: a product of two arrays is the sum over the contracted column of the entries'
  products, a broadcast reads its operand at the coordinates it keeps, a sum along a row is the zero word plus the sum
  of the row's entries, and every other operation acts entry by entry. Three steps are stated per layer: the linear
  part, the division by the row's length, and (first layer only) the batch normalisation with the positive part.
  The aggregated arrays, whose entries depend on the values of the edge list, are left as they are.
-/
import proofs.«148908_j3023656976611_2_alg».proof.Proof.Spec
import proofs.«148908_j3023656976611_2_alg».proof.Proof.RefReadP
import proofs.«148908_j3023656976611_2_alg».proof.Proof.PreVar

noncomputable section

open scoped BigOperators

namespace Cert.Sage.Ref

open Cert.ReferenceIdeal Cert.ReferenceIdeal.ReadP Cert.Sage Idealize.ShloMosaic Idealize.ShloMosaic.ValueIdx

/-! ## The first layer -/

/-- The linear part of the first layer at row p, column q: the two products are sums over the 128 input columns of row p
    of the aggregated array and of the features against column q of the two weight arrays, and the bias is read at q. -/
theorem lin0 (x0 : FVec Ideal S50000x128 .f32) (x1 : IVec S2x640000 32) (x2 : FVec Ideal S128x256 .f32)
    (x3 : FVec Ideal S256 .f32) (x4 : FVec Ideal S128x256 .f32)
    (p : Fin 50000) (q : Fin 256) :
    val_main_v27 (F := Ideal) x0 x1 x2 x3 x4 (ix2 p q)
      = lin (fun k => val_main_v21 (F := Ideal) x0 x1 (ix2 p k)) (fun k => x0 (ix2 p k))
          (fun k j => x2 (ix2 k j)) (fun k j => x4 (ix2 k j)) (fun j => x3 (ix1 j)) q := by
  have el : ∀ k : Fin 128, lidx_main_v22 (ix2 p q) k = ix2 p k := fun k =>
    funext fun a => Fin.ext (by match a with | ⟨0, _⟩ => rfl | ⟨1, _⟩ => rfl)
  have er : ∀ k : Fin 128, ridx_main_v22 (ix2 p q) k = ix2 k q := fun k =>
    funext fun a => Fin.ext (by match a with | ⟨0, _⟩ => rfl | ⟨1, _⟩ => rfl)
  have el' : ∀ k : Fin 128, lidx_main_v26 (ix2 p q) k = ix2 p k := fun k =>
    funext fun a => Fin.ext (by match a with | ⟨0, _⟩ => rfl | ⟨1, _⟩ => rfl)
  have er' : ∀ k : Fin 128, ridx_main_v26 (ix2 p q) k = ix2 k q := fun k =>
    funext fun a => Fin.ext (by match a with | ⟨0, _⟩ => rfl | ⟨1, _⟩ => rfl)
  have eb : idx_main_v23 (idx_main_v24 (ix2 p q)) = ix1 q :=
    funext fun a => Fin.ext (by match a with | ⟨0, _⟩ => rfl)
  rw [val_main_v27_apply, val_main_v25_apply, val_main_v22_apply, val_main_v24_apply, val_main_v23_apply,
    val_main_v26_apply]
  simp only [el, er, el', er', eb, Ideal.addf_def]
  rfl

/-- The first layer's normalisation at row p, column q: the entry divided by the larger of the root of the sum of the
    squares of row p and the floor. The sum starts from the zero word, which is the real zero. -/
theorem l2n0 (x0 : FVec Ideal S50000x128 .f32) (x1 : IVec S2x640000 32) (x2 : FVec Ideal S128x256 .f32)
    (x3 : FVec Ideal S256 .f32) (x4 : FVec Ideal S128x256 .f32)
    (p : Fin 50000) (q : Fin 256) :
    val_main_v35 (F := Ideal) x0 x1 x2 x3 x4 (ix2 p q)
      = l2n (fun j => val_main_v27 (F := Ideal) x0 x1 x2 x3 x4 (ix2 p j)) q := by
  have e : ∀ k : Fin 256, idx_main_v29 (idx_main_v30 (idx_main_v34 (ix2 p q))) k = ix2 p k := fun k =>
    funext fun a => Fin.ext (by match a with | ⟨0, _⟩ => rfl | ⟨1, _⟩ => rfl)
  rw [val_main_v35_apply, val_main_v34_apply, val_main_v33_apply, val_main_v31_apply, val_main_v30_apply,
    val_main_v29_apply, val_main_cst_4_apply, val_main_v32_apply, val_main_cst_5_apply]
  simp only [val_main_v28_apply, e, Ideal.hostDivf_def, Ideal.maximumf_def, Ideal.hostUnary_sqrt_def, Ideal.mulf_def,
    Ideal.ofBits_def, Ideal.ofBits_zero_f32, zero_add]
  rfl

/-- The batch normalisation and the positive part at row p, column q. The reference divides the scale by the root of
    the variance plus the constant where the specification multiplies it by the reciprocal root; the two agree because
    the variance plus the constant is positive. -/
theorem bn0 (x0 : FVec Ideal S50000x128 .f32) (x1 : IVec S2x640000 32) (x2 : FVec Ideal S128x256 .f32)
    (x3 : FVec Ideal S256 .f32) (x4 : FVec Ideal S128x256 .f32) (x8 x9 x10 x11 : FVec Ideal S256 .f32)
    (p : Fin 50000) (q : Fin 256) (hpos : 0 < x11 (ix1 q) + epsVar) :
    val_main_v49 (F := Ideal) x0 x1 x2 x3 x4 x8 x9 x10 x11 (ix2 p q)
      = bnRelu (fun j => x8 (ix1 j)) (fun j => x9 (ix1 j)) (fun j => x10 (ix1 j)) (fun j => x11 (ix1 j))
          (fun j => val_main_v35 (F := Ideal) x0 x1 x2 x3 x4 (ix2 p j)) q := by
  have em : idx_main_v36 (idx_main_v37 (ix2 p q)) = ix1 q :=
    funext fun a => Fin.ext (by match a with | ⟨0, _⟩ => rfl)
  have es : idx_main_v43 (idx_main_v44 (ix2 p q)) = ix1 q :=
    funext fun a => Fin.ext (by match a with | ⟨0, _⟩ => rfl)
  have eo : idx_main_v46 (idx_main_v47 (ix2 p q)) = ix1 q :=
    funext fun a => Fin.ext (by match a with | ⟨0, _⟩ => rfl)
  rw [val_main_v49_apply, val_main_v48_apply, val_main_v45_apply, val_main_v38_apply, val_main_v37_apply,
    val_main_v36_apply, val_main_v44_apply, val_main_v43_apply, val_main_v42_apply, val_main_v41_apply,
    val_main_v40_apply, val_main_v39_apply, val_main_cst_6_apply, val_main_v47_apply, val_main_v46_apply,
    val_main_call0_v0_apply, val_main_call0_cst_apply]
  simp only [em, es, eo, Ideal.maximumf_def, Ideal.addf_def, Ideal.mulf_def, Ideal.subf_def, Ideal.hostDivf_def,
    Ideal.hostUnary_sqrt_def, Ideal.ofBits_def]
  unfold bnRelu
  rw [scale_law _ _ hpos]

/-- The reference's first layer is the specification's first layer of the aggregated array and the inputs, provided the
    variances are not negative. -/
theorem layer0_eq (x0 : FVec Ideal S50000x128 .f32) (x1 : IVec S2x640000 32) (x2 : FVec Ideal S128x256 .f32)
    (x3 : FVec Ideal S256 .f32) (x4 : FVec Ideal S128x256 .f32) (x8 x9 x10 x11 : FVec Ideal S256 .f32)
    (h11 : ∀ j : Fin 256, 0 ≤ x11 (ix1 j)) :
    val_main_v49 (F := Ideal) x0 x1 x2 x3 x4 x8 x9 x10 x11
      = L0 (val_main_v21 (F := Ideal) x0 x1) x0 x2 x4 x3 x8 x9 x10 x11 := by
  funext i
  obtain ⟨p, q, rfl⟩ : ∃ (p : Fin 50000) (q : Fin 256), i = ix2 p q := ⟨i 0, i 1, eq_ix2 i⟩
  have hpos : 0 < x11 (ix1 q) + epsVar := lt_of_lt_of_le Pre.epsVar_pos (le_add_of_nonneg_left (h11 q))
  have hlin : (fun j : Fin 256 => val_main_v27 (F := Ideal) x0 x1 x2 x3 x4 (ix2 p j))
      = lin (fun k => val_main_v21 (F := Ideal) x0 x1 (ix2 p k)) (fun k => x0 (ix2 p k))
          (fun k j => x2 (ix2 k j)) (fun k j => x4 (ix2 k j)) (fun j => x3 (ix1 j)) :=
    funext fun j => lin0 x0 x1 x2 x3 x4 p j
  have hnrm : (fun j : Fin 256 => val_main_v35 (F := Ideal) x0 x1 x2 x3 x4 (ix2 p j))
      = l2n (lin (fun k => val_main_v21 (F := Ideal) x0 x1 (ix2 p k)) (fun k => x0 (ix2 p k))
          (fun k j => x2 (ix2 k j)) (fun k j => x4 (ix2 k j)) (fun j => x3 (ix1 j))) :=
    funext fun j => by rw [l2n0, hlin]
  rw [bn0 x0 x1 x2 x3 x4 x8 x9 x10 x11 p q hpos, hnrm]
  rfl

/-! ## The second layer -/

/-- The linear part of the second layer at row p, column q: sums over the 256 hidden columns of row p of the second
    aggregated array and of the first layer's result against column q of the two weight arrays, and the bias at q. -/
theorem lin1 (x0 : FVec Ideal S50000x128 .f32) (x1 : IVec S2x640000 32) (x2 : FVec Ideal S128x256 .f32)
    (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32)
    (p : Fin 50000) (q : Fin 256) :
    val_main_v73 (F := Ideal) x0 x1 x2 x3 x4 x5 x6 x7 x8 x9 x10 x11 (ix2 p q)
      = lin (fun k => val_main_v67 (F := Ideal) x0 x1 x2 x3 x4 x8 x9 x10 x11 (ix2 p k)) (fun k => val_main_v49 (F := Ideal) x0 x1 x2 x3 x4 x8 x9 x10 x11 (ix2 p k))
          (fun k j => x5 (ix2 k j)) (fun k j => x7 (ix2 k j)) (fun j => x6 (ix1 j)) q := by
  have el : ∀ k : Fin 256, lidx_main_v68 (ix2 p q) k = ix2 p k := fun k =>
    funext fun a => Fin.ext (by match a with | ⟨0, _⟩ => rfl | ⟨1, _⟩ => rfl)
  have er : ∀ k : Fin 256, ridx_main_v68 (ix2 p q) k = ix2 k q := fun k =>
    funext fun a => Fin.ext (by match a with | ⟨0, _⟩ => rfl | ⟨1, _⟩ => rfl)
  have el' : ∀ k : Fin 256, lidx_main_v72 (ix2 p q) k = ix2 p k := fun k =>
    funext fun a => Fin.ext (by match a with | ⟨0, _⟩ => rfl | ⟨1, _⟩ => rfl)
  have er' : ∀ k : Fin 256, ridx_main_v72 (ix2 p q) k = ix2 k q := fun k =>
    funext fun a => Fin.ext (by match a with | ⟨0, _⟩ => rfl | ⟨1, _⟩ => rfl)
  have eb : idx_main_v69 (idx_main_v70 (ix2 p q)) = ix1 q :=
    funext fun a => Fin.ext (by match a with | ⟨0, _⟩ => rfl)
  rw [val_main_v73_apply, val_main_v71_apply, val_main_v68_apply, val_main_v70_apply, val_main_v69_apply,
    val_main_v72_apply]
  simp only [el, er, el', er', eb, Ideal.addf_def]
  rfl

/-- The second layer's first normalisation at row p, column q. -/
theorem l2n1 (x0 : FVec Ideal S50000x128 .f32) (x1 : IVec S2x640000 32) (x2 : FVec Ideal S128x256 .f32)
    (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32)
    (p : Fin 50000) (q : Fin 256) :
    val_main_v81 (F := Ideal) x0 x1 x2 x3 x4 x5 x6 x7 x8 x9 x10 x11 (ix2 p q)
      = l2n (fun j => val_main_v73 (F := Ideal) x0 x1 x2 x3 x4 x5 x6 x7 x8 x9 x10 x11 (ix2 p j)) q := by
  have e : ∀ k : Fin 256, idx_main_v75 (idx_main_v76 (idx_main_v80 (ix2 p q))) k = ix2 p k := fun k =>
    funext fun a => Fin.ext (by match a with | ⟨0, _⟩ => rfl | ⟨1, _⟩ => rfl)
  rw [val_main_v81_apply, val_main_v80_apply, val_main_v79_apply, val_main_v77_apply, val_main_v76_apply,
    val_main_v75_apply, val_main_cst_13_apply, val_main_v78_apply, val_main_cst_14_apply]
  simp only [val_main_v74_apply, e, Ideal.hostDivf_def, Ideal.maximumf_def, Ideal.hostUnary_sqrt_def, Ideal.mulf_def,
    Ideal.ofBits_def, Ideal.ofBits_zero_f32, zero_add]
  rfl

/-- The second layer's second normalisation at row p, column q. -/
theorem l2n2 (x0 : FVec Ideal S50000x128 .f32) (x1 : IVec S2x640000 32) (x2 : FVec Ideal S128x256 .f32)
    (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32)
    (p : Fin 50000) (q : Fin 256) :
    val_main_v89 (F := Ideal) x0 x1 x2 x3 x4 x5 x6 x7 x8 x9 x10 x11 (ix2 p q)
      = l2n (fun j => val_main_v81 (F := Ideal) x0 x1 x2 x3 x4 x5 x6 x7 x8 x9 x10 x11 (ix2 p j)) q := by
  have e : ∀ k : Fin 256, idx_main_v83 (idx_main_v84 (idx_main_v88 (ix2 p q))) k = ix2 p k := fun k =>
    funext fun a => Fin.ext (by match a with | ⟨0, _⟩ => rfl | ⟨1, _⟩ => rfl)
  rw [val_main_v89_apply, val_main_v88_apply, val_main_v87_apply, val_main_v85_apply, val_main_v84_apply,
    val_main_v83_apply, val_main_cst_15_apply, val_main_v86_apply, val_main_cst_16_apply]
  simp only [val_main_v82_apply, e, Ideal.hostDivf_def, Ideal.maximumf_def, Ideal.hostUnary_sqrt_def, Ideal.mulf_def,
    Ideal.ofBits_def, Ideal.ofBits_zero_f32, zero_add]
  rfl

/-- The reference's second layer is the specification's second layer of the second aggregated array and the first
    layer's result. -/
theorem layer1_eq (x0 : FVec Ideal S50000x128 .f32) (x1 : IVec S2x640000 32) (x2 : FVec Ideal S128x256 .f32)
    (x3 : FVec Ideal S256 .f32) (x4 : FVec Ideal S128x256 .f32)
    (x5 : FVec Ideal S256x256 .f32) (x6 : FVec Ideal S256 .f32) (x7 : FVec Ideal S256x256 .f32)
    (x8 x9 x10 x11 : FVec Ideal S256 .f32) :
    val_main_v89 (F := Ideal) x0 x1 x2 x3 x4 x5 x6 x7 x8 x9 x10 x11
      = L1 (val_main_v67 (F := Ideal) x0 x1 x2 x3 x4 x8 x9 x10 x11) (val_main_v49 (F := Ideal) x0 x1 x2 x3 x4 x8 x9 x10 x11) x5 x7 x6 := by
  funext i
  obtain ⟨p, q, rfl⟩ : ∃ (p : Fin 50000) (q : Fin 256), i = ix2 p q := ⟨i 0, i 1, eq_ix2 i⟩
  have hlin : (fun j : Fin 256 => val_main_v73 (F := Ideal) x0 x1 x2 x3 x4 x5 x6 x7 x8 x9 x10 x11 (ix2 p j))
      = lin (fun k => val_main_v67 (F := Ideal) x0 x1 x2 x3 x4 x8 x9 x10 x11 (ix2 p k)) (fun k => val_main_v49 (F := Ideal) x0 x1 x2 x3 x4 x8 x9 x10 x11 (ix2 p k))
          (fun k j => x5 (ix2 k j)) (fun k j => x7 (ix2 k j)) (fun j => x6 (ix1 j)) :=
    funext fun j => lin1 x0 x1 x2 x3 x4 x5 x6 x7 x8 x9 x10 x11 p j
  have hnrm : (fun j : Fin 256 => val_main_v81 (F := Ideal) x0 x1 x2 x3 x4 x5 x6 x7 x8 x9 x10 x11 (ix2 p j))
      = l2n (lin (fun k => val_main_v67 (F := Ideal) x0 x1 x2 x3 x4 x8 x9 x10 x11 (ix2 p k)) (fun k => val_main_v49 (F := Ideal) x0 x1 x2 x3 x4 x8 x9 x10 x11 (ix2 p k))
          (fun k j => x5 (ix2 k j)) (fun k j => x7 (ix2 k j)) (fun j => x6 (ix1 j))) :=
    funext fun j => by rw [l2n1, hlin]
  rw [l2n2, hnrm]
  rfl

end Cert.Sage.Ref

end
-- ==== Proof.KernelValue.lean ====
/-
  The idealized kernel's result is the reference's, as one function of the arguments.

  The result buffer ends at what the second grid's write-backs leave: the second layer's array of what that grid finds.
  It finds the neighbourhood mean of the first grid's narrow-format output and the first grid's output itself, both of
  which are the first layer's array of what the first grid finds, and that is the reference's hidden array: the same
  aggregation of the features, the same linear maps and normalisation, and the batch-normalisation scale in its
  multiplicative form, which is the reference's quotient wherever the variance is nonnegative. The second layer's
  array of the reference's aggregation and hidden array is the reference's result.
-/
import proofs.«148908_j3023656976611_2_alg».proof.Proof.Spec
import proofs.«148908_j3023656976611_2_alg».proof.Proof.Arrays
import proofs.«148908_j3023656976611_2_alg».proof.Proof.Host0
import proofs.«148908_j3023656976611_2_alg».proof.Proof.Host1
import proofs.«148908_j3023656976611_2_alg».proof.Proof.RefLayers
import proofs.«148908_j3023656976611_2_alg».proof.Proof.RefReadP

set_option maxRecDepth 16384

noncomputable section

namespace Cert.Sage.Kernel

open Cert.KernelIdeal Cert.KernelIdeal.Gen Cert.Sage
open Idealize.ShloMosaic Idealize.ShloMosaic.TcCoe Idealize.ShloMosaic.ValueIdx
open Idealize.SL Idealize.SL.Sem
open Cert.ReferenceIdeal.ReadP

variable (m : (ℓ : Loc nD τ sig) → Buf (Elt Ideal) ℓ) (ρ : Dev nD → PrngReg)

/-- A one-row array whose row is a vector, as that vector. -/
theorem rowOf_eq (v : Vec Ideal S1x256 .f32) (a : FVec Ideal ⟨1, ![256]⟩ .f32)
    (h : ∀ j : Fin 256, v (ix2 (0 : Fin 1) j) = a (ix1 j)) : Arr.rowOf v = a :=
  funext fun j => (h (j 0)).trans (congrArg a (eq_ix1 j).symm)

/-- The first layer's array of what the first grid finds is the reference's hidden array. -/
theorem hidden (c : Dev nD) (h11 : ∀ j : Fin 256, (0 : EReal) ≤ ((m ((c.tc : Thread nD τ).loc main_arg11)) : FVec Ideal S256 .f32) (ix1 j)) :
    Arr.G0 (V1 m ρ) c = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) := by
  rw [Ref.layer0_eq _ _ _ _ _ _ _ _ _ h11]
  unfold Arr.G0
  rw [Host0.agg m ρ c, Host0.feat m ρ c, Host0.wl m ρ c, Host0.wr m ρ c,
    rowOf_eq _ _ (Host0.bias m ρ c), rowOf_eq _ _ (Host0.gamma m ρ c), rowOf_eq _ _ (Host0.beta m ρ c),
    rowOf_eq _ _ (Host0.mean m ρ c), rowOf_eq _ _ (Host0.var m ρ c)]

/-- The result buffer at the last boundary is the reference's result at the kernel's arguments. -/
theorem value (c : Dev nD) (h11 : ∀ j : Fin 256, (0 : EReal) ≤ ((m ((c.tc : Thread nD τ).loc main_arg11)) : FVec Ideal S256 .f32) (ix1 j)) :
    W4 m ρ c (Proc.devRef .tc main_v48) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hout : (W2 m ρ c (Proc.devRef .tc main_v31_0) : S50000x256.Idx → EReal) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) :=
    (W2_arr m ρ c 9).trans ((Arr.final0_9 (V1 m ρ) c).trans (hidden m ρ c h11))
  have hcopy : (W2 m ρ c (Proc.devRef .tc main_v31_1) : S50000x256.Idx → EReal) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) :=
    (W2_arr m ρ c 10).trans ((Arr.final0_10 (V1 m ρ) c).trans (hidden m ρ c h11))
  refine (W4_arr m ρ c 5).trans ((Arr.final1_5 (V3 m ρ) c).trans ?_)
  rw [Ref.layer1_eq, Host1.ref_agg]
  unfold Arr.G1
  rw [Host1.agg m ρ c, Host1.hid m ρ c, Host1.wl m ρ c, Host1.wr m ρ c, rowOf_eq _ _ (Host1.bias m ρ c), hout, hcopy]

end Cert.Sage.Kernel

end
-- ==== Proof.lean ====
/-
  A two-layer neighbourhood-averaging graph network on 50000 nodes and 640000 edges, as a kernel program and as its
  plain reference, are the same function of their arguments on the extended reals, wherever the running variance is
  nonnegative.

  Each layer replaces a node's row by a linear map of the mean of its in-neighbours' rows and of its own row, plus a
  bias, divided by the row's Euclidean length floored at a small constant. The first layer is followed by a batch
  normalisation with running statistics and the positive part; the second is normalised once more. The kernel
  program computes the neighbourhood means on the host, by a gather at the edges' sources and a sum at their
  destinations, exactly as the reference does, and runs each layer's row-wise part as a grid of 25 blocks of 2000
  rows; its changes of float format are the identity on the extended reals, its block products are the reference's
  products, and its lane sums the reference's sums. The one place the two programs are written differently is the
  batch-normalisation scale: the kernel multiplies by the reciprocal square root of the variance plus a constant
  where the reference divides by the square root. The two agree wherever that sum is positive, which the
  precondition's last conjunct — a nonnegative running variance — guarantees; without it they differ where the sum
  is zero or negative.

  The three frames: the two kernel programs' by their generated frame certificates, the reference's by its run with
  the result dropped. The idealization rewrote nothing, so that conjunct is trivial. For the equivalence both runs
  end with their result at the reference's final stage evaluated at the kernel's arguments: the kernel's by its run
  with the result named (KernelRun) and the walk back through both grids (KernelValue), the reference's by its run
  and the agreement of the two memories on the arguments.
-/
import proofs.«148908_j3023656976611_2_alg».proof.Defs
import proofs.«148908_j3023656976611_2_alg».proof.Proof.Gen.Kernel
import proofs.«148908_j3023656976611_2_alg».proof.Proof.Gen.Kernel.Skeleton
import proofs.«148908_j3023656976611_2_alg».proof.Proof.Gen.Kernel.Launch
import proofs.«148908_j3023656976611_2_alg».proof.Proof.Gen.Kernel.Points
import proofs.«148908_j3023656976611_2_alg».proof.Proof.Gen.Kernel.Frame
import proofs.«148908_j3023656976611_2_alg».proof.Proof.Gen.KernelIdeal
import proofs.«148908_j3023656976611_2_alg».proof.Proof.Gen.KernelIdeal.Skeleton
import proofs.«148908_j3023656976611_2_alg».proof.Proof.Gen.KernelIdeal.Launch
import proofs.«148908_j3023656976611_2_alg».proof.Proof.Gen.KernelIdeal.Points
import proofs.«148908_j3023656976611_2_alg».proof.Proof.Gen.KernelIdeal.Frame
import proofs.«148908_j3023656976611_2_alg».proof.Proof.Gen.ReferenceIdeal
import proofs.«148908_j3023656976611_2_alg».proof.Proof.Gen.Pre_finite_inputs
import proofs.«148908_j3023656976611_2_alg».proof.Proof.RefRunP
import proofs.«148908_j3023656976611_2_alg».proof.Proof.RefReadP
import proofs.«148908_j3023656976611_2_alg».proof.Proof.PreVar
import proofs.«148908_j3023656976611_2_alg».proof.Proof.KernelRun
import proofs.«148908_j3023656976611_2_alg».proof.Proof.KernelValue
import Idealize.ShloMosaic.Adequacy
import Idealize.ShloMosaic.Init

noncomputable section

namespace Cert.Proof

open Idealize.ShloMosaic Idealize.SL.Sem

/-- The printed kernel runs, nothing faulting, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with their result at the reference's final stage of the kernel's arguments. -/
theorem algebraic : Cert.algebraic_KernelIdeal_ReferenceIdeal := by
  intro m ρ m' ρ' hpre hagree
  have h11 : ∀ (c : Dev Cert.KernelIdeal.nD) (j : Fin 256), (0 : EReal) ≤ ((m ((c.tc : Thread Cert.KernelIdeal.nD Cert.KernelIdeal.τ).loc Cert.KernelIdeal.main_arg11)) : FVec Ideal Cert.KernelIdeal.S256 .f32) (ValueIdx.ix1 j) :=
    fun c => Cert.Sage.Pre.var_nonneg _ _ _ _ _ _ _ _ _ _ _ _ (hpre c)
  refine ⟨fun c => Cert.ReferenceIdeal.ReadP.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Sage.Kernel.value m ρ c (h11 c)), (h c).2⟩) (Cert.Sage.Run.run_value m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
